-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_v51) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x3 .f32) (main_arg1 : IVec S4096 32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 3#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x3 : Shape := ⟨2, ![4096, 3]⟩
abbrev S4096 : Shape := ⟨1, ![4096]⟩
abbrev S3 : Shape := ⟨1, ![3]⟩
abbrev S1x3 : Shape := ⟨2, ![1, 3]⟩
abbrev S4096x1 : Shape := ⟨2, ![4096, 1]⟩
abbrev S_ : Shape := ⟨0, ![]⟩
abbrev S3x1 : Shape := ⟨2, ![3, 1]⟩
abbrev S3x3 : Shape := ⟨2, ![3, 3]⟩
abbrev S4x1x128 : Shape := ⟨3, ![4, 1, 128]⟩
abbrev S1x1x128 : Shape := ⟨3, ![1, 1, 128]⟩
abbrev S1024x3 : Shape := ⟨2, ![1024, 3]⟩
abbrev S512x3 : Shape := ⟨2, ![512, 3]⟩
abbrev S1024 : Shape := ⟨1, ![1024]⟩
abbrev S1024x1 : Shape := ⟨2, ![1024, 1]⟩
abbrev S1024x512 : Shape := ⟨2, ![1024, 512]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 105
  | .vmem => 10
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S3, .f32⟩
  | .hbm, ⟨3, _⟩ => ⟨S1x3, .f32⟩
  | .hbm, ⟨4, _⟩ => ⟨S3, .f32⟩
  | .hbm, ⟨5, _⟩ => ⟨S1x3, .f32⟩
  | .hbm, ⟨6, _⟩ => ⟨S4096x1, .i32⟩
  | .hbm, ⟨7, _⟩ => ⟨S1x3, .i32⟩
  | .hbm, ⟨8, _⟩ => ⟨S4096x3, .i32⟩
  | .hbm, ⟨9, _⟩ => ⟨S4096x3, .i32⟩
  | .hbm, ⟨10, _⟩ => ⟨S4096x3, .i1⟩
  | .hbm, ⟨11, _⟩ => ⟨S4096x3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x3, .f32⟩
  | .hbm, ⟨16, _⟩ => ⟨S4096x3, .f32⟩
  | .hbm, ⟨17, _⟩ => ⟨S_, .f32⟩
  | .hbm, ⟨18, _⟩ => ⟨S4096x3, .f32⟩
  | .hbm, ⟨19, _⟩ => ⟨S4096x3, .f32⟩
  | .hbm, ⟨20, _⟩ => ⟨S4096x3, .f32⟩
  | .hbm, ⟨21, _⟩ => ⟨S4096x3, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x3, .f32⟩
  | .hbm, ⟨29, _⟩ => ⟨S4096x3, .f32⟩
  | .hbm, ⟨30, _⟩ => ⟨S4096x3, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x3, .f32⟩
  | .hbm, ⟨35, _⟩ => ⟨S4096x3, .f32⟩
  | .hbm, ⟨36, _⟩ => ⟨S4096x3, .f32⟩
  | .hbm, ⟨37, _⟩ => ⟨S4096x3, .f32⟩
  | .hbm, ⟨38, _⟩ => ⟨S4096x3, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S3, .i32⟩
  | .hbm, ⟨47, _⟩ => ⟨S3x1, .i32⟩
  | .hbm, ⟨48, _⟩ => ⟨S1x3, .i32⟩
  | .hbm, ⟨49, _⟩ => ⟨S3x3, .i32⟩
  | .hbm, ⟨50, _⟩ => ⟨S3x3, .i32⟩
  | .hbm, ⟨51, _⟩ => ⟨S3x3, .i1⟩
  | .hbm, ⟨52, _⟩ => ⟨S3x3, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S3x3, .f32⟩
  | .hbm, ⟨57, _⟩ => ⟨S3x3, .f32⟩
  | .hbm, ⟨58, _⟩ => ⟨S_, .f32⟩
  | .hbm, ⟨59, _⟩ => ⟨S3x3, .f32⟩
  | .hbm, ⟨60, _⟩ => ⟨S3x3, .f32⟩
  | .hbm, ⟨61, _⟩ => ⟨S3x3, .f32⟩
  | .hbm, ⟨62, _⟩ => ⟨S3x3, .f32⟩
  | .hbm, ⟨63, _⟩ => ⟨S4096x1, .i32⟩
  | .hbm, ⟨64, _⟩ => ⟨S1x3, .i32⟩
  | .hbm, ⟨65, _⟩ => ⟨S4096x3, .i32⟩
  | .hbm, ⟨66, _⟩ => ⟨S4096x3, .i32⟩
  | .hbm, ⟨67, _⟩ => ⟨S4096x3, .i1⟩
  | .hbm, ⟨68, _⟩ => ⟨S4096x3, .f32⟩
  | .hbm, ⟨69, _⟩ => ⟨S_, .f32⟩
  | .hbm, ⟨70, _⟩ => ⟨S3, .f32⟩
  | .hbm, ⟨71, _⟩ => ⟨S4096x3, .f32⟩
  | .hbm, ⟨72, _⟩ => ⟨S3x3, .f32⟩
  | .hbm, ⟨73, _⟩ => ⟨S4096x3, .f32⟩
  | .hbm, ⟨74, _⟩ => ⟨S4096x3, .f32⟩
  | .hbm, ⟨75, _⟩ => ⟨S1x3, .f32⟩
  | .hbm, ⟨76, _⟩ => ⟨S4096x3, .f32⟩
  | .hbm, ⟨77, _⟩ => ⟨S4096x3, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S4x1x128, .f32⟩
  | .hbm, ⟨85, _⟩ => ⟨S4x1x128, .f32⟩
  | .hbm, ⟨86, _⟩ => ⟨S4x1x1, .f32⟩
  | .hbm, ⟨87, _⟩ => ⟨S4, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4x1x1, .f32⟩
  | .hbm, ⟨95, _⟩ => ⟨S4, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S4096x3, .f32⟩
  | .local _ .vmem, ⟨1, _⟩ => ⟨S4096x3, .f32⟩
  | .local _ .vmem, ⟨2, _⟩ => ⟨S4096x3, .f32⟩
  | .local _ .vmem, ⟨3, _⟩ => ⟨S4096x3, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_cst_4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v25 : Ref sig .tc := ⟨.hbm, 52, rfl⟩
abbrev main_cst_9 : Ref sig .tc := ⟨.hbm, 53, rfl⟩
abbrev main_cst_10 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v29 : Ref sig .tc := ⟨.hbm, 68, rfl⟩
abbrev main_cst_11 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_12 : Ref sig .tc := ⟨.hbm, 78, rfl⟩
abbrev main_v38 : Ref sig .tc := ⟨.hbm, 79, rfl⟩
abbrev main_cst_13 : Ref sig .tc := ⟨.hbm, 80, rfl⟩
abbrev main_v39 : Ref sig .tc := ⟨.hbm, 81, rfl⟩
abbrev main_cst_14 : Ref sig .tc := ⟨.hbm, 82, rfl⟩
abbrev main_v40 : Ref sig .tc := ⟨.hbm, 83, rfl⟩
abbrev main_v41_0 : Ref sig .tc := ⟨.hbm, 84, rfl⟩
abbrev main_v41_1 : Ref sig .tc := ⟨.hbm, 85, rfl⟩
abbrev main_v42 : Ref sig .tc := ⟨.hbm, 86, rfl⟩
abbrev main_v43 : Ref sig .tc := ⟨.hbm, 87, rfl⟩
abbrev main_cst_15 : Ref sig .tc := ⟨.hbm, 88, rfl⟩
abbrev main_v44 : Ref sig .tc := ⟨.hbm, 89, rfl⟩
abbrev main_cst_16 : Ref sig .tc := ⟨.hbm, 90, rfl⟩
abbrev main_v45 : Ref sig .tc := ⟨.hbm, 91, rfl⟩
abbrev main_cst_17 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_18 : Ref sig .tc := ⟨.hbm, 96, rfl⟩
abbrev main_v49 : Ref sig .tc := ⟨.hbm, 97, rfl⟩
abbrev main_cst_19 : Ref sig .tc := ⟨.hbm, 98, rfl⟩
abbrev main_v50 : Ref sig .tc := ⟨.hbm, 99, rfl⟩
abbrev main_cst_20 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v19 : Index := Scalar.indexCast v6
  let c0_4 : Index := 0#32
  ![v19.toNat, 0]
def k0_cond2 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_26 : BitVec 32 := 0#32
  let v67 : BitVec 1 := Scalar.cmpi .ne v66 c0_i32_26
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S3_S1x3_1 : S3.BroadcastsInDim S1x3 (![1] : Fin 1 → Fin S1x3.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  reducesTo_S4096x3_S4096_d1 : S4096x3.ReducesTo [1] S4096
  h_S_ : 0 < S_.numel
  bcast_S_S4096 : S_.BroadcastsInDim S4096 (![] : Fin 0 → Fin S4096.rank)
  reducesTo_S4096_S_d0 : S4096.ReducesTo [0] S_
  bcast_S3_S3x1_0 : S3.BroadcastsInDim S3x1 (![0] : Fin 1 → Fin S3x1.rank)
  bcast_S3x1_S3x3_0_1 : S3x1.BroadcastsInDim S3x3 (![0, 1] : Fin 2 → Fin S3x3.rank)
  bcast_S1x3_S3x3_0_1 : S1x3.BroadcastsInDim S3x3 (![0, 1] : Fin 2 → Fin S3x3.rank)
  bcast_S_S3x3 : S_.BroadcastsInDim S3x3 (![] : Fin 0 → Fin S3x3.rank)
  reducesTo_S4096x3_S3_d0 : S4096x3.ReducesTo [0] S3
  transposes_S3x3_S3x3_1_0 : S3x3.Transposes [1, 0] S3x3
  reducesTo_S4096x3_S_d0_1 : S4096x3.ReducesTo [0, 1] S_
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  h_S1024x3 : 0 < S1024x3.numel
  shapeCasts_S1024x3_S1024x3 : S1024x3.ShapeCasts S1024x3
  h_S512x3 : 0 < S512x3.numel
  shapeCasts_S512x3_S512x3 : S512x3.ShapeCasts S512x3
  reduces_S1024x3_S1024 : S1024x3.Reduces [1] S1024
  shapeCasts_S1024_S1024x1 : S1024.ShapeCasts S1024x1
  broadcasts_S1024x1_S1024x512 : S1024x1.Broadcasts S1024x512
  reduces_S1024x512_S1024 : S1024x512.Reduces [1] S1024
  reduces_S1024x1_S1 : S1024x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  dot_S4096x3_S3x3_S4096x3_1_0_0_1_n_n_wf : DotDims.WF S4096x3 S3x3 S4096x3 [1] [0] [0] [1] [] []
  dot_S1024x3_S512x3_S1024x512_1_1_0_0_n_n_wf : DotDims.WF S1024x3 S512x3 S1024x512 [1] [1] [0] [0] [] []
  hrank0 : 0 < grid0.rank
  k0_mult1_dvd : ∀ i : grid0.Coords, 1024 ∣ (k0_mult1 i).toNat
  k0_mult2_dvd : ∀ i : grid0.Coords, 512 ∣ (k0_mult2 i).toNat
  k0_off1_inb : ∀ i : grid0.Coords, ∀ a, (k0_off1 i) a + S1024x3.size a ≤ S4096x3.size a
  k0_off2_inb : ∀ i : grid0.Coords, ∀ a, (k0_off2 i) a + S512x3.size a ≤ S4096x3.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S4096x3.size a
  hwx0_0 : ∀ i : grid0.Coords, EltTy.bits .f32 = 32 ∨ (Rect.block (s := S4096x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S4096x3.size a
  hwx0_1 : ∀ i : grid0.Coords, EltTy.bits .f32 = 32 ∨ (Rect.block (s := S4096x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S4096x3.size a
  hwx0_2 : ∀ i : grid0.Coords, EltTy.bits .f32 = 32 ∨ (Rect.block (s := S4096x3) S4096x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x3.size a ≤ S4096x3.size a
  hwx0_3 : ∀ i : grid0.Coords, EltTy.bits .f32 = 32 ∨ (Rect.block (s := S4096x3) S4096x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4x1x128.size a
  hwx0_4 : ∀ i : grid0.Coords, EltTy.bits .f32 = 32 ∨ (Rect.block (s := S4x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S4x1x128.size a
  hwx0_5 : ∀ i : grid0.Coords, EltTy.bits .f32 = 32 ∨ (Rect.block (s := S4x1x128) S1x1x128.size (cc0_transform_5 i) (hinb0_5 i)).WholeWords (EltTy.packing .f32)

variable [Facts₀]

def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S1024x3_S512x3_S1024x512_1_1_0_0_n_n : DotDims S1024x3 S512x3 S1024x512 where
  lhsContracting := [1]
  rhsContracting := [1]
  lhsNonContracting := [0]
  rhsNonContracting := [0]
  lhsBatch := []
  rhsBatch := []
  wf := dot_S1024x3_S512x3_S1024x512_1_1_0_0_n_n_wf

abbrev win0_0 : Pipeline.Window sig grid0 :=
  Pipeline.Window.ofSpec (Memref.whole main_v16) S4096x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4096x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x3 : Shape := ⟨2, ![4096, 3]⟩
abbrev S4096 : Shape := ⟨1, ![4096]⟩
abbrev S3 : Shape := ⟨1, ![3]⟩
abbrev S4096x1 : Shape := ⟨2, ![4096, 1]⟩
abbrev S1x3 : Shape := ⟨2, ![1, 3]⟩
abbrev S_ : Shape := ⟨0, ![]⟩
abbrev S3x4096 : Shape := ⟨2, ![3, 4096]⟩
abbrev S4096x4096 : Shape := ⟨2, ![4096, 4096]⟩
abbrev S1x4096 : Shape := ⟨2, ![1, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S3, .f32⟩
  | .hbm, ⟨3, _⟩ => ⟨S4096x1, .i32⟩
  | .hbm, ⟨4, _⟩ => ⟨S1x3, .i32⟩
  | .hbm, ⟨5, _⟩ => ⟨S4096x3, .i32⟩
  | .hbm, ⟨6, _⟩ => ⟨S4096x3, .i32⟩
  | .hbm, ⟨7, _⟩ => ⟨S4096x3, .i1⟩
  | .hbm, ⟨8, _⟩ => ⟨S4096x3, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x3, .f32⟩
  | .hbm, ⟨13, _⟩ => ⟨S4096x3, .f32⟩
  | .hbm, ⟨14, _⟩ => ⟨S_, .f32⟩
  | .hbm, ⟨15, _⟩ => ⟨S4096x3, .f32⟩
  | .hbm, ⟨16, _⟩ => ⟨S4096x3, .f32⟩
  | .hbm, ⟨17, _⟩ => ⟨S1x3, .f32⟩
  | .hbm, ⟨18, _⟩ => ⟨S4096x3, .f32⟩
  | .hbm, ⟨19, _⟩ => ⟨S4096x3, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1, .f32⟩
  | .hbm, ⟨26, _⟩ => ⟨S4096x3, .f32⟩
  | .hbm, ⟨27, _⟩ => ⟨S4096x3, .f32⟩
  | .hbm, ⟨28, _⟩ => ⟨S4096x3, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x3, .f32⟩
  | .hbm, ⟨33, _⟩ => ⟨S4096x3, .f32⟩
  | .hbm, ⟨34, _⟩ => ⟨S4096x3, .f32⟩
  | .hbm, ⟨35, _⟩ => ⟨S4096x3, .f32⟩
  | .hbm, ⟨36, _⟩ => ⟨S4096x3, .f32⟩
  | .hbm, ⟨37, _⟩ => ⟨S_, .f32⟩
  | .hbm, ⟨38, _⟩ => ⟨S4096, .f32⟩
  | .hbm, ⟨39, _⟩ => ⟨S4096x3, .f32⟩
  | .hbm, ⟨40, _⟩ => ⟨S_, .f32⟩
  | .hbm, ⟨41, _⟩ => ⟨S4096, .f32⟩
  | .hbm, ⟨42, _⟩ => ⟨S4096x3, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x1, .f32⟩
  | .hbm, ⟨51, _⟩ => ⟨S3x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x1, .f32⟩
  | .hbm, ⟨56, _⟩ => ⟨S3x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1x4096, .f32⟩
  | .hbm, ⟨69, _⟩ => ⟨S3x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S1x4096, .f32⟩
  | .hbm, ⟨74, _⟩ => ⟨S3x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096x1, .f32⟩
  | .hbm, ⟨87, _⟩ => ⟨S3x4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  bcast_S3_S1x3_1 : S3.BroadcastsInDim S1x3 (![1] : Fin 1 → Fin S1x3.rank)
  reducesTo_S4096x3_S4096_d1 : S4096x3.ReducesTo [1] S4096
  h_S_ : 0 < S_.numel
  bcast_S_S4096 : S_.BroadcastsInDim S4096 (![] : Fin 0 → Fin S4096.rank)
  reducesTo_S4096_S_d0 : S4096.ReducesTo [0] S_
  transposes_S4096x3_S3x4096_1_0 : S4096x3.Transposes [1, 0] S3x4096
  bcast_S4096x1_S4096x4096_0_1 : S4096x1.BroadcastsInDim S4096x4096 (![0, 1] : Fin 2 → Fin S4096x4096.rank)
  reducesTo_S4096x4096_S_d0_1 : S4096x4096.ReducesTo [0, 1] S_
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x3_S3x4096_S4096x4096_1_0_0_1_n_n_wf : DotDims.WF S4096x3 S3x4096 S4096x4096 [1] [0] [0] [1] [] []

variable [Facts₀]

def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf

class Facts : Prop extends Facts₀ where

variable [Facts]
-- ==== Proof.KernelPieces.lean ====
import proofs.«176446_j53927609369062_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The rows `1024·i₀ … 1024·i₀ + 1023` of a whole [4096, 3] table: what the body loads for the row block of a grid point. -/
def rowsI (i : grid0.Coords) (x : Vec F S4096x3 .f32) : Vec F S1024x3 .f32 :=
  View.ld x (Rect.unit (s := S4096x3) (k0_off1 i) S1024x3.size (k0_off1_inb i))

/-- The rows `512·i₁ … 512·i₁ + 511` of a whole table: what the body loads for the column block of a grid point. -/
def rowsJ (i : grid0.Coords) (x : Vec F S4096x3 .f32) : Vec F S512x3 .f32 :=
  View.ld x (Rect.unit (s := S4096x3) (k0_off2 i) S512x3.size (k0_off2_inb i))

/-- One grid point's update of the first accumulator: the previous contents plus the point's block sum of the first loss
    (tables in window order: S, log S, T, log T). -/
def step1 (i : grid0.Coords) (x0 : Vec F S4096x3 .f32) (x1 : Vec F S4096x3 .f32) (x2 : Vec F S4096x3 .f32) (x3 : Vec F S4096x3 .f32) (prev : Vec F S1x1x128 .f32) : Vec F S1x1x128 .f32 :=
  k0_pay1 (k0_pay10 (rowsI i x0) (rowsI i x1) (rowsI i x2) (rowsI i x3) (rowsJ i x1) (rowsJ i x3)) prev

/-- One grid point's update of the second accumulator: the previous contents plus the point's block sum of the third loss. -/
def step3 (i : grid0.Coords) (x0 : Vec F S4096x3 .f32) (x1 : Vec F S4096x3 .f32) (x2 : Vec F S4096x3 .f32) (x3 : Vec F S4096x3 .f32) (prev : Vec F S1x1x128 .f32) : Vec F S1x1x128 .f32 :=
  k0_pay2 (k0_pay6 (rowsI i x2)) (k0_pay7 (rowsJ i x1)) (k0_pay8 (rowsI i x0) (rowsI i x1) (rowsI i x2) (rowsI i x3))
    (k0_pay9 (rowsI i x0) (rowsJ i x1)) prev

theorem hz3 : (![0, 0, 0] : Fin 3 → ℕ) = fun _ => 0 := by
  funext a; match a with | ⟨0, _⟩ => rfl | ⟨1, _⟩ => rfl | ⟨2, _⟩ => rfl

/-! The eight found pieces: what each case of the body leaves in the two accumulators, and at a last point of a grid row in
   the two output blocks.  First point of a row (case A): zero, then one update.  Other points (B, C): one update of what
   the point before left.  A last point (C) also copies each updated accumulator into its output block. -/

theorem sA0 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i) (x0 : Vec F S4096x3 .f32) (x1 : Vec F S4096x3 .f32) (x2 : Vec F S4096x3 .f32) (x3 : Vec F S4096x3 .f32) :
    sout0_A_0 (F := F) c i arg2 harg2 arg3 harg3 arg4 harg4 arg5 harg5 arg6 harg6 arg7 harg7 arg8 harg8 arg9 harg9 hc0 hc1 x0 x1 x2 x3 = step1 i x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem sA1 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i) (x0 : Vec F S4096x3 .f32) (x1 : Vec F S4096x3 .f32) (x2 : Vec F S4096x3 .f32) (x3 : Vec F S4096x3 .f32) :
    sout0_A_1 (F := F) c i arg2 harg2 arg3 harg3 arg4 harg4 arg5 harg5 arg6 harg6 arg7 harg7 arg8 harg8 arg9 harg9 hc0 hc1 x0 x1 x2 x3 = step3 i x0 x1 x2 x3 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem sB0 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : ¬cond0_1 i) (x0 : Vec F S4096x3 .f32) (x1 : Vec F S4096x3 .f32) (x2 : Vec F S4096x3 .f32) (x3 : Vec F S4096x3 .f32) (xs0 : Vec F S1x1x128 .f32) (xs1 : Vec F S1x1x128 .f32) :
    sout0_B_0 (F := F) c i arg2 harg2 arg3 harg3 arg4 harg4 arg5 harg5 arg6 harg6 arg7 harg7 arg8 harg8 arg9 harg9 hc0 hc1 x0 x1 x2 x3 xs0 xs1 = step1 i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem sB1 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : ¬cond0_1 i) (x0 : Vec F S4096x3 .f32) (x1 : Vec F S4096x3 .f32) (x2 : Vec F S4096x3 .f32) (x3 : Vec F S4096x3 .f32) (xs0 : Vec F S1x1x128 .f32) (xs1 : Vec F S1x1x128 .f32) :
    sout0_B_1 (F := F) c i arg2 harg2 arg3 harg3 arg4 harg4 arg5 harg5 arg6 harg6 arg7 harg7 arg8 harg8 arg9 harg9 hc0 hc1 x0 x1 x2 x3 xs0 xs1 = step3 i x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem sC0 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 : Vec F S4096x3 .f32) (x1 : Vec F S4096x3 .f32) (x2 : Vec F S4096x3 .f32) (x3 : Vec F S4096x3 .f32) (xs0 : Vec F S1x1x128 .f32) (xs1 : Vec F S1x1x128 .f32) :
    sout0_C_0 (F := F) c i arg2 harg2 arg3 harg3 arg4 harg4 arg5 harg5 arg6 harg6 arg7 harg7 arg8 harg8 arg9 harg9 hc0 hc1 x0 x1 x2 x3 xs0 xs1 = step1 i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem sC1 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 : Vec F S4096x3 .f32) (x1 : Vec F S4096x3 .f32) (x2 : Vec F S4096x3 .f32) (x3 : Vec F S4096x3 .f32) (xs0 : Vec F S1x1x128 .f32) (xs1 : Vec F S1x1x128 .f32) :
    sout0_C_1 (F := F) c i arg2 harg2 arg3 harg3 arg4 harg4 arg5 harg5 arg6 harg6 arg7 harg7 arg8 harg8 arg9 harg9 hc0 hc1 x0 x1 x2 x3 xs0 xs1 = step3 i x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem oC4 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 : Vec F S4096x3 .f32) (x1 : Vec F S4096x3 .f32) (x2 : Vec F S4096x3 .f32) (x3 : Vec F S4096x3 .f32) (xs0 : Vec F S1x1x128 .f32) (xs1 : Vec F S1x1x128 .f32) :
    out0_C_4 (F := F) c i arg2 harg2 arg3 harg3 arg4 harg4 arg5 harg5 arg6 harg6 arg7 harg7 arg8 harg8 arg9 harg9 hc0 hc1 x0 x1 x2 x3 xs0 xs1 = step1 i x0 x1 x2 x3 xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

theorem oC5 (c : Dev nD) (i : grid0.Coords) (arg2 : Memref sig .tc .vmem S4096x3 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 : Vec F S4096x3 .f32) (x1 : Vec F S4096x3 .f32) (x2 : Vec F S4096x3 .f32) (x3 : Vec F S4096x3 .f32) (xs0 : Vec F S1x1x128 .f32) (xs1 : Vec F S1x1x128 .f32) :
    out0_C_5 (F := F) c i arg2 harg2 arg3 harg3 arg4 harg4 arg5 harg5 arg6 harg6 arg7 harg7 arg8 harg8 arg9 harg9 hc0 hc1 x0 x1 x2 x3 xs0 xs1 = step3 i x0 x1 x2 x3 xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.readCov_unit_zero (S := S1x1x128) arg8.view hz3, View.readCov_unit_zero (S := S1x1x128) arg9.view hz3, View.ld_unit_zero (S := S1x1x128) hz3]
  rfl

end Cert.KernelIdeal.Pieces

end
-- ==== Proof.LibDotRowT.lean ====
/-
  A matrix product with ONE contracted axis against a TRANSPOSED right operand, read at an index, as a sum over the
  contracted coordinate.

  For dimension numbers `d` of an [M, K] by [N, K] product into [M, N] — both operands contracted on their
  second axis — the sum over the contraction index set of `L (d.lhsIdx (p, f) k) * R (d.rhsIdx (p, f) k)` is
  `∑ k : Fin K, L (p, k) * R (f, k)`: the contraction index is its one coordinate, the left operand's row is the
  output's row and the right operand's ROW the output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.LibColumnCast.lean ====
/-
  A vector `[a]` reshaped to a column `[a, 1]` reads, at `(i, u)`, the vector at `i`.
-/
import Idealize.ShloMosaic.Lib.ValueLayout
import Idealize.ShloMosaic.Lib.Pipeline.Value

namespace Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibColumnBroadcast.lean ====
/-
  Column broadcasts read at an index, beside the library's row broadcast: a `[a, 1]` array broadcast to `[a, b]` reads, at `(p, c)`,
  the operand's one column at row `p`.
-/
import Idealize.ShloMosaic.Lib.ValueLayout
import Idealize.ShloMosaic.Lib.Pipeline.Value

namespace Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  One grid point's arithmetic, read at an index on the extended reals.

  From a block of 1024 rows of the four tables (A = S, B = log S, C = T, D = log T) and a block of 512 rows of two
  of them (E, G) the body forms, for every pair (r, q), the entry
      |(A_r·B_r − C_r·D_r) − (A_r·E_q − C_r·G_q)|
  sums it over the 512 columns and then over the 1024 rows, and adds the total to every lane of a [1,1,128]
  accumulator.  The contractions are MXU products against a transposed right operand into a zero accumulator; the
  row constants are lane sums; every sum starts from the zero word.
-/
import proofs.«176446_j53927609369062_2_alg».proof.Proof.Gen.KernelIdeal.Skeleton
import proofs.«176446_j53927609369062_2_alg».proof.Proof.LibDotRowT
import proofs.«176446_j53927609369062_2_alg».proof.Proof.LibColumnCast
import proofs.«176446_j53927609369062_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-- Row `r` of an [m, 3] block against row `q` of an [n, 3] block. -/
def rdot {m n : ℕ} (X : (⟨2, ![m, 3]⟩ : Shape).Idx → EReal) (Y : (⟨2, ![n, 3]⟩ : Shape).Idx → EReal)
    (r : Fin m) (q : Fin n) : EReal := ∑ c : Fin 3, X (ix2 r c) * Y (ix2 q c)

/-- The entry of a grid point's block at (r, q). -/
def entry (A B C D : (⟨2, ![1024, 3]⟩ : Shape).Idx → EReal) (E G : (⟨2, ![512, 3]⟩ : Shape).Idx → EReal)
    (r : Fin 1024) (q : Fin 512) : EReal :=
  max ((rdot A B r r - rdot C D r r) - (rdot A E r q - rdot C G r q))
    (-((rdot A B r r - rdot C D r r) - (rdot A E r q - rdot C G r q)))

/-- A grid point's block sum. -/
def blockSum (A B C D : (⟨2, ![1024, 3]⟩ : Shape).Idx → EReal) (E G : (⟨2, ![512, 3]⟩ : Shape).Idx → EReal) : EReal :=
  ∑ r : Fin 1024, ∑ q : Fin 512, entry A B C D E G r q

/-! ## Sums over one axis, read at an index -/

/-- The sum over the columns of an [m, n] array, read at row `r`: the sum of that row's entries. -/
theorem sum_cols_apply {m n : ℕ} (x : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (r : Fin m) :
    multiReduction (F := Ideal) .add [1] ⟨1, ![m]⟩ x 0x00000000#32 h hφ hacc (ix1 r) = ∑ c : Fin n, x (ix2 r c) := by
  refine (Ideal.multiReduction_add_single x 0x00000000#32 h hφ hacc (ix1 r)).trans ?_
  show ∑ c : Fin n, x (h.lift (ix1 r) c) = ∑ c : Fin n, x (ix2 r c)
  refine Finset.sum_congr rfl fun c _ => congrArg x ?_
  funext a; apply Fin.ext
  match a with
  | ⟨0, _⟩ => rfl
  | ⟨1, _⟩ => rfl

/-- The sum over the rows of an [m, 1] column, read at its one index: the sum of the column's entries. -/
theorem sum_rows_apply {m : ℕ} (x : FVec Ideal ⟨2, ![m, 1]⟩ .f32)
    (h : (⟨2, ![m, 1]⟩ : Shape).Reduces [0] ⟨1, ![1]⟩) (hφ : FKind.Formats .f32)
    (hacc : (0x00000000#32 : BitVec 32) = FKind.add.neutral .f32 hφ) (u : Fin 1) :
    multiReduction (F := Ideal) .add [0] ⟨1, ![1]⟩ x 0x00000000#32 h hφ hacc (ix1 u) = ∑ r : Fin m, x (ix2 r u) := by
  refine (Ideal.multiReduction_add_single x 0x00000000#32 h hφ hacc (ix1 u)).trans ?_
  show ∑ r : Fin m, x (h.lift (ix1 u) r) = ∑ r : Fin m, x (ix2 r u)
  refine Finset.sum_congr rfl fun r _ => congrArg x ?_
  funext a; apply Fin.ext
  match a with
  | ⟨0, _⟩ => rfl
  | ⟨1, _⟩ => rfl

/-- Lane sums kept as a column and then summed over the rows: the double sum over the [1024, 512] block. -/
theorem total_apply (x : FVec Ideal S1024x512 .f32) :
    multiReduction (F := Ideal) .add [0] S1
        (shapeCast S1024x1 (multiReduction (F := Ideal) .add [1] S1024 x 0x00000000#32 reduces_S1024x512_S1024 (.inl rfl) rfl)
          shapeCasts_S1024_S1024x1)
        0x00000000#32 reduces_S1024x1_S1 (.inl rfl) rfl (ix1 (0 : Fin 1))
      = ∑ r : Fin 1024, ∑ q : Fin 512, x (ix2 r q) := by
  refine (sum_rows_apply _ reduces_S1024x1_S1 (.inl rfl) rfl 0).trans ?_
  refine Finset.sum_congr rfl fun r _ => ?_
  refine (shapeCast_a_a1_apply _ shapeCasts_S1024_S1024x1 r 0).trans ?_
  exact sum_cols_apply x reduces_S1024x512_S1024 (.inl rfl) rfl r

/-! ## The contraction against a transposed right operand -/

/-- The left operand's row is the output's row. -/
theorem dot_lhs_row (j : S1024x512.Idx) (k : dot_S1024x3_S512x3_S1024x512_1_1_0_0_n_n.contr.Idx) :
    (dot_S1024x3_S512x3_S1024x512_1_1_0_0_n_n.lhsIdx j k 0).val = (j 0).val := by
  unfold DotDims.lhsIdx
  rw [dif_neg (show ¬(0 : Fin S1024x3.rank) ∈ dot_S1024x3_S512x3_S1024x512_1_1_0_0_n_n.lhsBatch by decide),
    dif_pos (show (0 : Fin S1024x3.rank) ∈ dot_S1024x3_S512x3_S1024x512_1_1_0_0_n_n.lhsNonContracting by decide)]
  rfl

/-- The right operand's row is the output's column. -/
theorem dot_rhs_row (j : S1024x512.Idx) (k : dot_S1024x3_S512x3_S1024x512_1_1_0_0_n_n.contr.Idx) :
    (dot_S1024x3_S512x3_S1024x512_1_1_0_0_n_n.rhsIdx j k 0).val = (j 1).val := by
  unfold DotDims.rhsIdx
  rw [dif_neg (show ¬(0 : Fin S512x3.rank) ∈ dot_S1024x3_S512x3_S1024x512_1_1_0_0_n_n.rhsBatch by decide),
    dif_pos (show (0 : Fin S512x3.rank) ∈ dot_S1024x3_S512x3_S1024x512_1_1_0_0_n_n.rhsNonContracting by decide)]
  rfl

/-- The product of an [1024, 3] block with the transpose of a [512, 3] block, accumulated into zero, read at (r, q):
    row `r` of the one against row `q` of the other. -/
theorem matmulT_apply (L : FVec Ideal S1024x3 .f32) (R : FVec Ideal S512x3 .f32) (r : Fin 1024) (q : Fin 512) :
    matmul (F := Ideal) dot_S1024x3_S512x3_S1024x512_1_1_0_0_n_n (some .fp32) L R (constant (F := Ideal) S1024x512 .f32 0x00000000#32) (ix2 r q)
      = rdot L R r q := by
  refine (Ideal.matmul_constant_zero_apply dot_S1024x3_S512x3_S1024x512_1_1_0_0_n_n (some .fp32) L R (ix2 r q)).trans ?_
  exact DotRowT.sum_contr dot_S1024x3_S512x3_S1024x512_1_1_0_0_n_n rfl rfl rfl rfl dot_lhs_row dot_rhs_row L R r q

/-! ## The pieces of a grid point's block -/

/-- The first contraction: rows of A against rows of E. -/
theorem pay9_apply (v8 : Vec Ideal S1024x3 .f32) (v20 : Vec Ideal S512x3 .f32) (r : Fin 1024) (q : Fin 512) :
    k0_pay9 (F := Ideal) v8 v20 (ix2 r q) = rdot v8 v20 r q := by
  unfold k0_pay9 k0_pay5 k0_pay7
  simp only [shapeCast_self]
  exact matmulT_apply v8 v20 r q

/-- The lane sum of the product of two [1024, 3] blocks, kept as a column, read at row `r`. -/
theorem prodCol_apply (X Y : FVec Ideal S1024x3 .f32) (r : Fin 1024) :
    shapeCast S1024x1
        (multiReduction (F := Ideal) .add [1] S1024 (mulf X Y) 0x00000000#32 reduces_S1024x3_S1024 (.inl rfl) rfl)
        shapeCasts_S1024_S1024x1 (ix2 r (0 : Fin 1))
      = rdot X Y r r := by
  refine (shapeCast_a_a1_apply _ shapeCasts_S1024_S1024x1 r 0).trans ?_
  exact sum_cols_apply (mulf X Y) reduces_S1024x3_S1024 (.inl rfl) rfl r

/-- The base column: A_r·B_r − C_r·D_r. -/
theorem base_apply (v8 v11 v14 v17 : Vec Ideal S1024x3 .f32) (r : Fin 1024) :
    k0_pay8 (F := Ideal) v8 v11 v14 v17 (ix2 r (0 : Fin 1)) = rdot v8 v11 r r - rdot v14 v17 r r := by
  unfold k0_pay8 k0_pay5 k0_pay6
  simp only [shapeCast_self]
  refine (subf_apply _ _ _).trans ?_
  rw [prodCol_apply v8 v11 r, prodCol_apply v14 v17 r]

/-- The entry at (r, q), for any second contraction `M` that reads C's rows against G's. -/
theorem entry_apply (v8 v11 v14 v17 : Vec Ideal S1024x3 .f32) (v20 G : Vec Ideal S512x3 .f32)
    (M : FVec Ideal S1024x512 .f32) (hM : ∀ (r : Fin 1024) (q : Fin 512), M (ix2 r q) = rdot v14 G r q)
    (r : Fin 1024) (q : Fin 512) :
    absf (subf (broadcastTo S1024x512 (k0_pay8 (F := Ideal) v8 v11 v14 v17) broadcasts_S1024x1_S1024x512)
        (subf (k0_pay9 (F := Ideal) v8 v20) M)) (ix2 r q)
      = entry v8 v11 v14 v17 v20 G r q := by
  have hd : subf (broadcastTo S1024x512 (k0_pay8 (F := Ideal) v8 v11 v14 v17) broadcasts_S1024x1_S1024x512)
        (subf (k0_pay9 (F := Ideal) v8 v20) M) (ix2 r q)
      = (rdot v8 v11 r r - rdot v14 v17 r r) - (rdot v8 v20 r q - rdot v14 G r q) := by
    refine (subf_apply _ _ _).trans ?_
    rw [broadcastTo_a1_ab_apply _ broadcasts_S1024x1_S1024x512 r q, base_apply v8 v11 v14 v17 r]
    refine congrArg ((rdot v8 v11 r r - rdot v14 v17 r r) - ·) ?_
    refine (subf_apply _ _ _).trans ?_
    rw [pay9_apply v8 v20 r q, hM r q]
  show max (subf _ _ (ix2 r q)) (-(subf _ _ (ix2 r q))) = _
  rw [hd]
  rfl

/-! ## The accumulator's update -/

/-- A one-element vector viewed [1, 1] and then [1, 1, 1] reads its one entry. -/
theorem unitCasts_apply (t : FVec Ideal S1 .f32) :
    shapeCast S1x1x1 (shapeCast S1x1 t shapeCasts_S1_S1x1) shapeCasts_S1x1_S1x1x1 (ix3 (0 : Fin 1) (0 : Fin 1) (0 : Fin 1))
      = t (ix1 (0 : Fin 1)) := by
  refine (shapeCast_apply _ shapeCasts_S1x1_S1x1x1 _ (ix2 (0 : Fin 1) (0 : Fin 1)) ?_).trans ?_
  · rw [Shape.rowMajor_val_two, Shape.rowMajor_val_three]; rfl
  · exact shapeCast_apply t shapeCasts_S1_S1x1 _ (ix1 (0 : Fin 1)) (by
      rw [Shape.rowMajor_val_one, Shape.rowMajor_val_two]; rfl)

/-- Adding a one-element vector to every lane of the accumulator. -/
theorem tail_apply (t : FVec Ideal S1 .f32) (prev : FVec Ideal S1x1x128 .f32) (j : S1x1x128.Idx) :
    shapeCast S1x1x128
        (addf prev (broadcastTo S1x1x128 (shapeCast S1x1x1 (shapeCast S1x1 t shapeCasts_S1_S1x1) shapeCasts_S1x1_S1x1x1)
          broadcasts_S1x1x1_S1x1x128))
        shapeCasts_S1x1x128_S1x1x128 j
      = prev j + t (ix1 (0 : Fin 1)) := by
  rw [shapeCast_self]
  refine (addf_apply _ _ j).trans (congrArg (prev j + ·) ?_)
  refine (broadcastTo_apply _ broadcasts_S1x1x1_S1x1x128 j (ix3 (0 : Fin 1) (0 : Fin 1) (0 : Fin 1)) fun a => ?_).trans
    (unitCasts_apply t)
  match a with
  | ⟨0, _⟩ => rfl
  | ⟨1, _⟩ => rfl
  | ⟨2, _⟩ => rfl

/-- The block's total, for any second contraction `M` that reads C's rows against G's. -/
theorem blockTotal_apply (v8 v11 v14 v17 : Vec Ideal S1024x3 .f32) (v20 G : Vec Ideal S512x3 .f32)
    (M : FVec Ideal S1024x512 .f32) (hM : ∀ (r : Fin 1024) (q : Fin 512), M (ix2 r q) = rdot v14 G r q) :
    multiReduction (F := Ideal) .add [0] S1
        (shapeCast S1024x1
          (multiReduction (F := Ideal) .add [1] S1024
            (absf (subf (broadcastTo S1024x512 (k0_pay8 (F := Ideal) v8 v11 v14 v17) broadcasts_S1024x1_S1024x512)
              (subf (k0_pay9 (F := Ideal) v8 v20) M)))
            0x00000000#32 reduces_S1024x512_S1024 (.inl rfl) rfl)
          shapeCasts_S1024_S1024x1)
        0x00000000#32 reduces_S1024x1_S1 (.inl rfl) rfl (ix1 (0 : Fin 1))
      = blockSum v8 v11 v14 v17 v20 G := by
  refine (total_apply _).trans ?_
  exact Finset.sum_congr rfl fun r _ => Finset.sum_congr rfl fun q _ => entry_apply v8 v11 v14 v17 v20 G M hM r q

/-- The zero the accumulators are reset to. -/
theorem pay3_apply (j : S1x1x128.Idx) : k0_pay3 (F := Ideal) j = 0 := by
  unfold k0_pay3
  rw [shapeCast_self]
  exact Ideal.ofBits_zero_f32

theorem pay4_apply (j : S1x1x128.Idx) : k0_pay4 (F := Ideal) j = 0 := by
  unfold k0_pay4
  rw [shapeCast_self]
  exact Ideal.ofBits_zero_f32

/-- The first accumulator's update: every lane gains the block sum whose cross term is C·G with G = log T's rows. -/
theorem pay1_apply (v8 v11 v14 v17 : Vec Ideal S1024x3 .f32) (v20 v23 : Vec Ideal S512x3 .f32)
    (prev : Vec Ideal S1x1x128 .f32) (j : S1x1x128.Idx) :
    k0_pay1 (F := Ideal) (k0_pay10 v8 v11 v14 v17 v20 v23) prev j = prev j + blockSum v8 v11 v14 v17 v20 v23 := by
  unfold k0_pay1
  refine (tail_apply _ prev j).trans (congrArg (prev j + ·) ?_)
  unfold k0_pay10
  refine blockTotal_apply v8 v11 v14 v17 v20 v23 _ fun r q => ?_
  unfold k0_pay6
  simp only [shapeCast_self]
  exact matmulT_apply v14 v23 r q

/-- The second accumulator's update: the cross term is C·E, against the same log S rows as the first contraction. -/
theorem pay2_apply (v8 v11 v14 v17 : Vec Ideal S1024x3 .f32) (v20 : Vec Ideal S512x3 .f32)
    (prev : Vec Ideal S1x1x128 .f32) (j : S1x1x128.Idx) :
    k0_pay2 (F := Ideal) (k0_pay6 v14) (k0_pay7 v20) (k0_pay8 v8 v11 v14 v17) (k0_pay9 v8 v20) prev j
      = prev j + blockSum v8 v11 v14 v17 v20 v20 := by
  unfold k0_pay2
  refine (tail_apply _ prev j).trans (congrArg (prev j + ·) ?_)
  refine blockTotal_apply v8 v11 v14 v17 v20 v20 _ fun r q => ?_
  unfold k0_pay6 k0_pay7
  simp only [shapeCast_self]
  exact matmulT_apply v14 v20 r q

end Cert.KernelIdeal.Payload

end
-- ==== Proof.KernelAccum.lean ====
/-
  The two accumulators, point by point.

  The grid is 4 × 8, walked row by row: point n has row n / 8 and column n % 8.  At the first point of a row both
  accumulators are zeroed and then updated; at every later point they are updated from what the point before left.
  So after point n every lane of the first accumulator holds the sum of the block sums of the points
  8·(n / 8), …, n of the first loss, and the second accumulator the same for the third loss.  At the last point of a row
  the updated accumulators are copied into the two output blocks.
-/
import proofs.«176446_j53927609369062_2_alg».proof.Proof.KernelPieces
import proofs.«176446_j53927609369062_2_alg».proof.Proof.KernelPayload

set_option maxRecDepth 16384

noncomputable section

namespace Cert.KernelIdeal.Accum

open Cert.KernelIdeal Cert.KernelIdeal.Gen Cert.KernelIdeal.Pieces Cert.KernelIdeal.Payload
open Idealize.ShloMosaic Idealize.ShloMosaic.TcCoe Idealize.SL.Sem

variable (m : (ℓ : Loc nD τ sig) → Buf (Elt Ideal) ℓ)

/-- The four tables as the region finds them, in window order (S, log S, T, log T), at point `t`. -/
abbrev X0 (c : Dev nD) (t : Fin cfg0.N) : Vec Ideal S4096x3 .f32 := iblk m c 0 t
abbrev X1 (c : Dev nD) (t : Fin cfg0.N) : Vec Ideal S4096x3 .f32 := iblk m c 1 t
abbrev X2 (c : Dev nD) (t : Fin cfg0.N) : Vec Ideal S4096x3 .f32 := iblk m c 2 t
abbrev X3 (c : Dev nD) (t : Fin cfg0.N) : Vec Ideal S4096x3 .f32 := iblk m c 3 t

/-- Point `n`'s block sum of the first loss (zero past the grid). -/
def P1 (c : Dev nD) (n : ℕ) : EReal :=
  if h : n < cfg0.N then
    blockSum (rowsI (grid0.coords ⟨n, h⟩) (X0 m c ⟨n, h⟩)) (rowsI (grid0.coords ⟨n, h⟩) (X1 m c ⟨n, h⟩))
      (rowsI (grid0.coords ⟨n, h⟩) (X2 m c ⟨n, h⟩)) (rowsI (grid0.coords ⟨n, h⟩) (X3 m c ⟨n, h⟩))
      (rowsJ (grid0.coords ⟨n, h⟩) (X1 m c ⟨n, h⟩)) (rowsJ (grid0.coords ⟨n, h⟩) (X3 m c ⟨n, h⟩))
  else 0

/-- Point `n`'s block sum of the third loss (zero past the grid). -/
def P3 (c : Dev nD) (n : ℕ) : EReal :=
  if h : n < cfg0.N then
    blockSum (rowsI (grid0.coords ⟨n, h⟩) (X0 m c ⟨n, h⟩)) (rowsI (grid0.coords ⟨n, h⟩) (X1 m c ⟨n, h⟩))
      (rowsI (grid0.coords ⟨n, h⟩) (X2 m c ⟨n, h⟩)) (rowsI (grid0.coords ⟨n, h⟩) (X3 m c ⟨n, h⟩))
      (rowsJ (grid0.coords ⟨n, h⟩) (X1 m c ⟨n, h⟩)) (rowsJ (grid0.coords ⟨n, h⟩) (X1 m c ⟨n, h⟩))
  else 0

theorem step1_apply (i : grid0.Coords) (x0 x1 x2 x3 : Vec Ideal S4096x3 .f32) (prev : Vec Ideal S1x1x128 .f32) (j : S1x1x128.Idx) :
    step1 i x0 x1 x2 x3 prev j = prev j + blockSum (rowsI i x0) (rowsI i x1) (rowsI i x2) (rowsI i x3) (rowsJ i x1) (rowsJ i x3) := by
  unfold step1; exact pay1_apply _ _ _ _ _ _ _ _

theorem step3_apply (i : grid0.Coords) (x0 x1 x2 x3 : Vec Ideal S4096x3 .f32) (prev : Vec Ideal S1x1x128 .f32) (j : S1x1x128.Idx) :
    step3 i x0 x1 x2 x3 prev j = prev j + blockSum (rowsI i x0) (rowsI i x1) (rowsI i x2) (rowsI i x3) (rowsJ i x1) (rowsJ i x1) := by
  unfold step3; exact pay2_apply _ _ _ _ _ _ _

/-- One point's effect on the first accumulator. -/
theorem s0_step (c : Dev nD) (n : ℕ) (h : n < cfg0.N) (j : S1x1x128.Idx) :
    (outsAt0 m c n h).2.2.1 j
      = (if n % 8 = 0 then 0 else (outsAt0 m c (n - 1) (Nat.lt_of_le_of_lt (Nat.sub_le _ _) h)).2.2.1 j) + P1 m c n := by
  have hN : cfg0.N = 32 := N_0
  have hP : P1 m c n = blockSum (rowsI (grid0.coords ⟨n, h⟩) (X0 m c ⟨n, h⟩)) (rowsI (grid0.coords ⟨n, h⟩) (X1 m c ⟨n, h⟩))
      (rowsI (grid0.coords ⟨n, h⟩) (X2 m c ⟨n, h⟩)) (rowsI (grid0.coords ⟨n, h⟩) (X3 m c ⟨n, h⟩))
      (rowsJ (grid0.coords ⟨n, h⟩) (X1 m c ⟨n, h⟩)) (rowsJ (grid0.coords ⟨n, h⟩) (X3 m c ⟨n, h⟩)) := by
    unfold P1; rw [dif_pos h]
  rw [hP]
  by_cases h0 : n % 8 = 0
  · have h1 : ¬n % 8 = 7 := by omega
    rw [if_pos h0, outsAt0_A m c ⟨n, h⟩ h0 h1]
    dsimp only
    rw [sA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩),
      step1_apply, pay3_apply]
  · rw [if_neg h0]
    by_cases h1 : n % 8 = 7
    · rw [outsAt0_C m c ⟨n, h⟩ h0 h1]
      dsimp only
      rw [sC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
        step1_apply]
    · rw [outsAt0_B m c ⟨n, h⟩ h0 h1]
      dsimp only
      rw [sB0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
        step1_apply]

/-- One point's effect on the second accumulator. -/
theorem s1_step (c : Dev nD) (n : ℕ) (h : n < cfg0.N) (j : S1x1x128.Idx) :
    (outsAt0 m c n h).2.2.2 j
      = (if n % 8 = 0 then 0 else (outsAt0 m c (n - 1) (Nat.lt_of_le_of_lt (Nat.sub_le _ _) h)).2.2.2 j) + P3 m c n := by
  have hN : cfg0.N = 32 := N_0
  have hP : P3 m c n = blockSum (rowsI (grid0.coords ⟨n, h⟩) (X0 m c ⟨n, h⟩)) (rowsI (grid0.coords ⟨n, h⟩) (X1 m c ⟨n, h⟩))
      (rowsI (grid0.coords ⟨n, h⟩) (X2 m c ⟨n, h⟩)) (rowsI (grid0.coords ⟨n, h⟩) (X3 m c ⟨n, h⟩))
      (rowsJ (grid0.coords ⟨n, h⟩) (X1 m c ⟨n, h⟩)) (rowsJ (grid0.coords ⟨n, h⟩) (X1 m c ⟨n, h⟩)) := by
    unfold P3; rw [dif_pos h]
  rw [hP]
  by_cases h0 : n % 8 = 0
  · have h1 : ¬n % 8 = 7 := by omega
    rw [if_pos h0, outsAt0_A m c ⟨n, h⟩ h0 h1]
    dsimp only
    rw [sA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩),
      step3_apply, pay4_apply]
  · rw [if_neg h0]
    by_cases h1 : n % 8 = 7
    · rw [outsAt0_C m c ⟨n, h⟩ h0 h1]
      dsimp only
      rw [sC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
        step3_apply]
    · rw [outsAt0_B m c ⟨n, h⟩ h0 h1]
      dsimp only
      rw [sB1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
        step3_apply]

/-- A quantity that is reset at the first point of each grid row and otherwise grows by `P n` at point `n` holds, after point
    `n`, the sum of `P` over the points of `n`'s row up to `n`. -/
theorem closed (N : ℕ) (A : (n : ℕ) → n < N → EReal) (P : ℕ → EReal)
    (hstep : ∀ n (h : n < N), A n h = (if n % 8 = 0 then 0 else A (n - 1) (Nat.lt_of_le_of_lt (Nat.sub_le _ _) h)) + P n) :
    ∀ n (h : n < N), A n h = ∑ k ∈ Finset.range (n % 8 + 1), P (8 * (n / 8) + k) := by
  intro n
  induction n with
  | zero => intro h; rw [hstep 0 h]; simp
  | succ n ih =>
    intro h
    rw [hstep (n + 1) h]
    by_cases h0 : (n + 1) % 8 = 0
    · rw [if_pos h0, h0, zero_add]
      have e : 8 * ((n + 1) / 8) = n + 1 := by omega
      simp [e]
    · rw [if_neg h0]
      have e := ih (Nat.lt_of_succ_lt h)
      change A n _ + P (n + 1) = _
      rw [e]
      have e1 : (n + 1) / 8 = n / 8 := by omega
      have e2 : (n + 1) % 8 = n % 8 + 1 := by omega
      have e3 : 8 * (n / 8) + (n % 8 + 1) = n + 1 := by omega
      rw [e1, e2, Finset.sum_range_succ (fun k => P (8 * (n / 8) + k)) (n % 8 + 1), e3]

/-- After point `n` every lane of the first accumulator holds the first loss's block sums of `n`'s grid row up to `n`. -/
theorem s0_sum (c : Dev nD) (j : S1x1x128.Idx) (n : ℕ) (h : n < cfg0.N) :
    (outsAt0 m c n h).2.2.1 j = ∑ k ∈ Finset.range (n % 8 + 1), P1 m c (8 * (n / 8) + k) :=
  closed cfg0.N (fun n h => (outsAt0 m c n h).2.2.1 j) (P1 m c) (fun n h => s0_step m c n h j) n h

/-- The same for the second accumulator and the third loss. -/
theorem s1_sum (c : Dev nD) (j : S1x1x128.Idx) (n : ℕ) (h : n < cfg0.N) :
    (outsAt0 m c n h).2.2.2 j = ∑ k ∈ Finset.range (n % 8 + 1), P3 m c (8 * (n / 8) + k) :=
  closed cfg0.N (fun n h => (outsAt0 m c n h).2.2.2 j) (P3 m c) (fun n h => s1_step m c n h j) n h

/-- At the last point of a grid row the first output block is the first accumulator as just updated. -/
theorem o4_last (c : Dev nD) (n : ℕ) (h : n < cfg0.N) (h1 : n % 8 = 7) :
    (outsAt0 m c n h).1 = (outsAt0 m c n h).2.2.1 := by
  have h0 : ¬n % 8 = 0 := by omega
  rw [outsAt0_C m c ⟨n, h⟩ h0 h1]
  dsimp only
  rw [oC4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
    sC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2]

/-- And the second output block the second accumulator. -/
theorem o5_last (c : Dev nD) (n : ℕ) (h : n < cfg0.N) (h1 : n % 8 = 7) :
    (outsAt0 m c n h).2.1 = (outsAt0 m c n h).2.2.2 := by
  have h0 : ¬n % 8 = 0 := by omega
  rw [outsAt0_C m c ⟨n, h⟩ h0 h1]
  dsimp only
  rw [oC5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
    sC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2]

end Cert.KernelIdeal.Accum

end
-- ==== Proof.KernelArray.lean ====
/-
  The two result arrays of the region.

  Each output window's block is one row [1, 1, 128] of a [4, 1, 128] array, indexed by the grid row; it is written back
  only at the last point of the grid row, when it holds the accumulator.  So row i of the first array holds, in every lane,
  the sum over the eight column blocks of grid row i of the first loss's block sums, and the second array the third loss's.
-/
import proofs.«176446_j53927609369062_2_alg».proof.Proof.KernelAccum

set_option maxRecDepth 16384

noncomputable section

namespace Cert.KernelIdeal.Arr

open Cert.KernelIdeal Cert.KernelIdeal.Gen Cert.KernelIdeal.Pieces Cert.KernelIdeal.Payload Cert.KernelIdeal.Accum
open Idealize.ShloMosaic Idealize.ShloMosaic.TcCoe Idealize.SL.Sem
open Idealize.ShloMosaic.Pipeline (Dat)

variable (m : (ℓ : Loc nD τ sig) → Buf (Elt Ideal) ℓ)

/-- The first result array, as the region leaves it: row `i` holds, in every lane, the block sums of grid row `i`. -/
def G4v (c : Dev nD) : S4x1x128.Idx → EReal :=
  fun i => ∑ k ∈ Finset.range 8, P1 m c (8 * (i 0).val + k)

/-- Lane 0 of row `i`: the eight block sums of grid row `i`. -/
theorem G4v_row (c : Dev nD) (i : Fin 4) :
    G4v m c (Idealize.ShloMosaic.ValueIdx.ix3 i (0 : Fin 1) (0 : Fin 128)) = ∑ k ∈ Finset.range 8, P1 m c (8 * i.val + k) := rfl

/-- The same, as the contents of the result array's buffer. -/
abbrev G4 (c : Dev nD) : Buf (Elt Ideal) ((c : Thread nD τ).loc main_v41_0) := G4v m c

theorem idx4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

theorem xs4 : ∀ t : Fin cfg0.N, win0_4.xsize (grid0.coords t) 0 = 1 ∧ win0_4.xsize (grid0.coords t) 1 = 1 ∧ win0_4.xsize (grid0.coords t) 2 = 128 :=
  (by decide +kernel : ∀ t : Fin grid0.N, win0_4.xsize (grid0.coords t) 0 = 1 ∧ win0_4.xsize (grid0.coords t) 1 = 1 ∧ win0_4.xsize (grid0.coords t) 2 = 128)

/-- What a last point of a grid row writes back is that row's block of the array. -/
theorem flushed_eq4 (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  show (cfg0.win 4).cut (grid0.coords t) ((dats m 0 c).after 4 t) = _
  rw [after0_4]
  funext y
  rw [View.read_apply]
  show (outsAt0 m c t.val t.isLt).1 y = G4v m c _
  rw [o4_last m c t.val t.isLt h7, s0_sum m c y t.val t.isLt, h7]
  unfold G4v
  have e0 : ((((cfg0.win 4).blk t).view.emb y) 0).val = t.val / 8 := by
    show win0_4.index t 0 * 1 + 1 * (y 0).val = _
    have hy : (y 0).val < win0_4.xsize (grid0.coords t) 0 := (y 0).isLt
    rw [(xs4 t).1] at hy
    rw [(idx4 t).1]; omega
  rw [e0]

/-- Every index of the array lies in the block of the last point of its grid row. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 32 := N_0
  have h0 : (i 0 : Nat) < 4 := (i 0).isLt
  have h1 : (i 1 : Nat) < 1 := (i 1).isLt
  have h2 : (i 2 : Nat) < 128 := (i 2).isLt
  have ht : 8 * (i 0 : Nat) + 7 < cfg0.N := by omega
  refine ⟨⟨8 * (i 0 : Nat) + 7, ht⟩, (flush0_4 _).mpr (by show (8 * (i 0 : Nat) + 7) % 8 = 7; omega), ?_⟩
  show i ∈ ((View.whole main_v41_0).slice (win0_4.rect ⟨8 * (i 0 : Nat) + 7, ht⟩)).set
  rw [View.set_slice_whole, Rect.mem_set_unit]
  intro a
  match a with
  | ⟨0, _⟩ =>
    show win0_4.index ⟨8 * (i 0 : Nat) + 7, ht⟩ 0 * win0_4.size 0 ≤ (i 0 : Nat) ∧ (i 0 : Nat) < win0_4.index ⟨8 * (i 0 : Nat) + 7, ht⟩ 0 * win0_4.size 0 + win0_4.xsize (grid0.coords ⟨8 * (i 0 : Nat) + 7, ht⟩) 0
    rw [(idx4 ⟨8 * (i 0 : Nat) + 7, ht⟩).1, (xs4 ⟨8 * (i 0 : Nat) + 7, ht⟩).1]
    show (8 * (i 0 : Nat) + 7) / 8 * 1 ≤ (i 0 : Nat) ∧ (i 0 : Nat) < (8 * (i 0 : Nat) + 7) / 8 * 1 + 1
    omega
  | ⟨1, _⟩ =>
    show win0_4.index ⟨8 * (i 0 : Nat) + 7, ht⟩ 1 * win0_4.size 1 ≤ (i 1 : Nat) ∧ (i 1 : Nat) < win0_4.index ⟨8 * (i 0 : Nat) + 7, ht⟩ 1 * win0_4.size 1 + win0_4.xsize (grid0.coords ⟨8 * (i 0 : Nat) + 7, ht⟩) 1
    rw [(idx4 ⟨8 * (i 0 : Nat) + 7, ht⟩).2.1, (xs4 ⟨8 * (i 0 : Nat) + 7, ht⟩).2.1]; omega
  | ⟨2, _⟩ =>
    show win0_4.index ⟨8 * (i 0 : Nat) + 7, ht⟩ 2 * win0_4.size 2 ≤ (i 2 : Nat) ∧ (i 2 : Nat) < win0_4.index ⟨8 * (i 0 : Nat) + 7, ht⟩ 2 * win0_4.size 2 + win0_4.xsize (grid0.coords ⟨8 * (i 0 : Nat) + 7, ht⟩) 2
    rw [(idx4 ⟨8 * (i 0 : Nat) + 7, ht⟩).2.2, (xs4 ⟨8 * (i 0 : Nat) + 7, ht⟩).2.2]; omega

/-- So the array ends holding the row sums. -/
theorem arr4 (c : Dev nD) : (dats m 0 c).arrAt 4 cfg0.N = G4 m c :=
  (dats m 0 c).arrAt_eq_of_cover 4 (G4 m c) (flushed_eq4 m c) (cover4 c)

/-- The second result array, as the region leaves it: row `i` holds, in every lane, the block sums of grid row `i`. -/
def G5v (c : Dev nD) : S4x1x128.Idx → EReal :=
  fun i => ∑ k ∈ Finset.range 8, P3 m c (8 * (i 0).val + k)

/-- Lane 0 of row `i`: the eight block sums of grid row `i`. -/
theorem G5v_row (c : Dev nD) (i : Fin 4) :
    G5v m c (Idealize.ShloMosaic.ValueIdx.ix3 i (0 : Fin 1) (0 : Fin 128)) = ∑ k ∈ Finset.range 8, P3 m c (8 * i.val + k) := rfl

/-- The same, as the contents of the result array's buffer. -/
abbrev G5 (c : Dev nD) : Buf (Elt Ideal) ((c : Thread nD τ).loc main_v41_1) := G5v m c

theorem idx5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

theorem xs5 : ∀ t : Fin cfg0.N, win0_5.xsize (grid0.coords t) 0 = 1 ∧ win0_5.xsize (grid0.coords t) 1 = 1 ∧ win0_5.xsize (grid0.coords t) 2 = 128 :=
  (by decide +kernel : ∀ t : Fin grid0.N, win0_5.xsize (grid0.coords t) 0 = 1 ∧ win0_5.xsize (grid0.coords t) 1 = 1 ∧ win0_5.xsize (grid0.coords t) 2 = 128)

/-- What a last point of a grid row writes back is that row's block of the array. -/
theorem flushed_eq5 (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  show (cfg0.win 5).cut (grid0.coords t) ((dats m 0 c).after 5 t) = _
  rw [after0_5]
  funext y
  rw [View.read_apply]
  show (outsAt0 m c t.val t.isLt).2.1 y = G5v m c _
  rw [o5_last m c t.val t.isLt h7, s1_sum m c y t.val t.isLt, h7]
  unfold G5v
  have e0 : ((((cfg0.win 5).blk t).view.emb y) 0).val = t.val / 8 := by
    show win0_5.index t 0 * 1 + 1 * (y 0).val = _
    have hy : (y 0).val < win0_5.xsize (grid0.coords t) 0 := (y 0).isLt
    rw [(xs5 t).1] at hy
    rw [(idx5 t).1]; omega
  rw [e0]

/-- Every index of the array lies in the block of the last point of its grid row. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 32 := N_0
  have h0 : (i 0 : Nat) < 4 := (i 0).isLt
  have h1 : (i 1 : Nat) < 1 := (i 1).isLt
  have h2 : (i 2 : Nat) < 128 := (i 2).isLt
  have ht : 8 * (i 0 : Nat) + 7 < cfg0.N := by omega
  refine ⟨⟨8 * (i 0 : Nat) + 7, ht⟩, (flush0_5 _).mpr (by show (8 * (i 0 : Nat) + 7) % 8 = 7; omega), ?_⟩
  show i ∈ ((View.whole main_v41_1).slice (win0_5.rect ⟨8 * (i 0 : Nat) + 7, ht⟩)).set
  rw [View.set_slice_whole, Rect.mem_set_unit]
  intro a
  match a with
  | ⟨0, _⟩ =>
    show win0_5.index ⟨8 * (i 0 : Nat) + 7, ht⟩ 0 * win0_5.size 0 ≤ (i 0 : Nat) ∧ (i 0 : Nat) < win0_5.index ⟨8 * (i 0 : Nat) + 7, ht⟩ 0 * win0_5.size 0 + win0_5.xsize (grid0.coords ⟨8 * (i 0 : Nat) + 7, ht⟩) 0
    rw [(idx5 ⟨8 * (i 0 : Nat) + 7, ht⟩).1, (xs5 ⟨8 * (i 0 : Nat) + 7, ht⟩).1]
    show (8 * (i 0 : Nat) + 7) / 8 * 1 ≤ (i 0 : Nat) ∧ (i 0 : Nat) < (8 * (i 0 : Nat) + 7) / 8 * 1 + 1
    omega
  | ⟨1, _⟩ =>
    show win0_5.index ⟨8 * (i 0 : Nat) + 7, ht⟩ 1 * win0_5.size 1 ≤ (i 1 : Nat) ∧ (i 1 : Nat) < win0_5.index ⟨8 * (i 0 : Nat) + 7, ht⟩ 1 * win0_5.size 1 + win0_5.xsize (grid0.coords ⟨8 * (i 0 : Nat) + 7, ht⟩) 1
    rw [(idx5 ⟨8 * (i 0 : Nat) + 7, ht⟩).2.1, (xs5 ⟨8 * (i 0 : Nat) + 7, ht⟩).2.1]; omega
  | ⟨2, _⟩ =>
    show win0_5.index ⟨8 * (i 0 : Nat) + 7, ht⟩ 2 * win0_5.size 2 ≤ (i 2 : Nat) ∧ (i 2 : Nat) < win0_5.index ⟨8 * (i 0 : Nat) + 7, ht⟩ 2 * win0_5.size 2 + win0_5.xsize (grid0.coords ⟨8 * (i 0 : Nat) + 7, ht⟩) 2
    rw [(idx5 ⟨8 * (i 0 : Nat) + 7, ht⟩).2.2, (xs5 ⟨8 * (i 0 : Nat) + 7, ht⟩).2.2]; omega

/-- So the array ends holding the row sums. -/
theorem arr5 (c : Dev nD) : (dats m 0 c).arrAt 5 cfg0.N = G5 m c :=
  (dats m 0 c).arrAt_eq_of_cover 5 (G5 m c) (flushed_eq5 m c) (cover5 c)

end Cert.KernelIdeal.Arr

end
-- ==== Proof.Spec.lean ====
/-
  The four loss terms of the SelfKL objective, as functions of four [4096, 3] tables over the extended reals.

  S is a row-wise softmax, LS its logarithm, T the clipped one-hot target and LT its logarithm.  With
  `dot X Y a b = Σ_c X[a,c] · Y[b,c]` the pairwise entries are

    reference:  |(S_a·LS_a − S_a·LS_b) − (T_a·LT_a − T_a·X_b)|        (X = LT for loss 1, X = LS for loss 3)
    kernel:     |(S_a·LS_a − T_a·LT_a) − (S_a·LS_b − T_a·X_b)|

  and each loss is the sum of its entries over the whole 4096 × 4096 square.  The two arrangements agree
  whenever the four tables hold real numbers; at an infinity the regrouping of the differences fails, so the
  bridge is stated for real-valued tables only.
-/
import Idealize.ShloMosaic.Lib.ValueIdx
import Idealize.ShloMosaic.PureOps.Ideal

noncomputable section

namespace SelfKL

open Idealize.ShloMosaic Idealize.ShloMosaic.ValueIdx

/-- A [4096, 3] table of extended reals. -/
abbrev Tab := (⟨2, ![4096, 3]⟩ : Shape).Idx → EReal

/-- Row `a` of `X` against row `b` of `Y`: the contraction over the three classes. -/
def dot (X Y : Tab) (a b : Fin 4096) : EReal := ∑ c : Fin 3, X (ix2 a c) * Y (ix2 b c)

/-- The absolute value on the extended reals, as the larger of a number and its negation. -/
def absE (x : EReal) : EReal := max x (-x)

/-- The reference's pairwise entry. -/
def refTerm (S LS T LT X : Tab) (a b : Fin 4096) : EReal :=
  absE ((dot S LS a a - dot S LS a b) - (dot T LT a a - dot T X a b))

/-- The kernel's pairwise entry: the row constants are subtracted first, then the cross terms. -/
def kerTerm (S LS T LT X : Tab) (a b : Fin 4096) : EReal :=
  absE ((dot S LS a a - dot T LT a a) - (dot S LS a b - dot T X a b))

/-- The sum of a function over the whole square. -/
def total (f : Fin 4096 → Fin 4096 → EReal) : EReal := ∑ a : Fin 4096, ∑ b : Fin 4096, f a b

/-- The reference's entry of the second loss: the row constant `T_b·LT_b` appears in both differences. -/
def refTerm2 (LS T LT : Tab) (a b : Fin 4096) : EReal :=
  absE ((dot T LT b b - dot LS T a b) - (dot T LT b b - dot LT T a b))

/-- A summed loss: eps is added once and the sum divided by 4096² (the two f32 words as both programs print them). -/
def lossOf (tot : EReal) : EReal :=
  Ideal.div (Ideal.ofBits .f32 0x38D1B717#32 + tot) (Ideal.ofBits .f32 0x4B800000#32)

/-- The cross-entropy term: the mean over the rows of minus the contraction of a target row with the log-softmax row. -/
def loss0 (T LS : Tab) : EReal :=
  Ideal.div (∑ a : Fin 4096, -(dot T LS a a)) (Ideal.ofBits .f32 0x45800000#32)

/-- The kernel's form of the second loss's sum: rows × classes, each class weighted by its number of rows.
    `TT` is the 3 × 3 table of the three possible target rows, `cnt` the per-class row counts. -/
def kerSum2 (LS LT : Tab) (TT : (⟨2, ![3, 3]⟩ : Shape).Idx → EReal) (cnt : (⟨1, ![3]⟩ : Shape).Idx → EReal) : EReal :=
  ∑ a : Fin 4096, ∑ k : Fin 3, absE (∑ c : Fin 3, (LT (ix2 a c) - LS (ix2 a c)) * TT (ix2 k c)) * cnt (ix1 k)

/-- A table holds real numbers only. -/
def IsReal (X : Tab) : Prop := ∃ x : Fin 4096 → Fin 3 → ℝ, ∀ a c, X (ix2 a c) = (x a c : EReal)

end SelfKL

end
-- ==== Proof.KernelTail.lean ====
/-
  The host operations after the region.

  From each [4, 1, 128] result array the program takes lane 0 of its four rows (a slice and a reshape to [4]), sums them
  from zero, adds eps and divides by 4096²: the first and third losses.  The cross-entropy term and the second loss were
  computed before the region and are untouched; the total is (loss 0 + loss 1) + (loss 2 + loss 3).
-/
import proofs.«176446_j53927609369062_2_alg».proof.Proof.KernelArray
import proofs.«176446_j53927609369062_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Tail

open Cert.KernelIdeal Cert.KernelIdeal.Gen Cert.KernelIdeal.Accum Cert.KernelIdeal.Arr
open Idealize.ShloMosaic Idealize.ShloMosaic.TcCoe Idealize.ShloMosaic.Tactic Idealize.ShloMosaic.StableHlo
open Idealize.ShloMosaic.ValueIdx Idealize.SL Idealize.SL.Sem SelfKL

variable (m : (ℓ : Loc nD τ sig) → Buf (Elt Ideal) ℓ)

/-- After the region the first result array's buffer holds the row sums. -/
theorem W4 (c : Dev nD) :
    Pipeline.withArrays (cfgs 0).spec c (V0 m c) (fun w => (dats m 0 c).arrAt w (cfgs 0).N) (Proc.devRef .tc main_v41_0)
      = G4 m c :=
  (Pipeline.withArrays_arr spec0 launch0.win.arr_inj c _ _ 4).trans (arr4 m c)

theorem W5 (c : Dev nD) :
    Pipeline.withArrays (cfgs 0).spec c (V0 m c) (fun w => (dats m 0 c).arrAt w (cfgs 0).N) (Proc.devRef .tc main_v41_1)
      = G5 m c :=
  (Pipeline.withArrays_arr spec0 launch0.win.arr_inj c _ _ 5).trans (arr5 m c)

/-- A buffer no window stages is, after the region, what the region found. -/
theorem W23 (c : Dev nD) :
    Pipeline.withArrays (cfgs 0).spec c (V0 m c) (fun w => (dats m 0 c).arrAt w (cfgs 0).N) (Proc.devRef .tc main_v23)
      = V m c main_v23 :=
  Pipeline.withArrays_of_ne _ c (V0 m c) _ main_v23 (by exact (by decide : ∀ w, Pipeline.arrRef spec0 w ≠ main_v23))

theorem W40 (c : Dev nD) :
    Pipeline.withArrays (cfgs 0).spec c (V0 m c) (fun w => (dats m 0 c).arrAt w (cfgs 0).N) (Proc.devRef .tc main_v40)
      = V m c main_v40 :=
  Pipeline.withArrays_of_ne _ c (V0 m c) _ main_v40 (by exact (by decide : ∀ w, Pipeline.arrRef spec0 w ≠ main_v40))

/-- The [4] array's indices are the four coordinates. -/
def idx4Equiv : S4.Idx ≃ Fin 4 where
  toFun j := j 0
  invFun i := ix1 i
  left_inv j := (eq_ix1 j).symm
  right_inv _ := rfl

/-- Lane 0 of row `i`, through the slice [0:4, 0:1, 0:1] and the reshape to [4]. -/
theorem lane0_apply (A : S4x1x128.Idx → EReal) (i : Fin 4) :
    shapeCast S4 (extractStridedSlice S4x1x1 ![0, 0, 0] A slices_S4x1x128_S4x1x1_0_0_0) shapeCasts_S4x1x1_S4 (ix1 i)
      = A (ix3 i (0 : Fin 1) (0 : Fin 128)) := by
  rw [shapeCast_apply _ shapeCasts_S4x1x1_S4 (ix1 i) (ix3 i (0 : Fin 1) (0 : Fin 1)) (by
    rw [Shape.rowMajor_val_three, Shape.rowMajor_val_one]
    show (i.val * 1 + 0) * 1 + 0 = i.val
    omega)]
  unfold extractStridedSlice
  refine congrArg A (funext fun a => Fin.ext ?_)
  match a with
  | ⟨0, _⟩ => show 0 + i.val = i.val; omega
  | ⟨1, _⟩ => rfl
  | ⟨2, _⟩ => rfl

/-- Lane 0 of the four rows of a [4, 1, 128] array, summed from zero. -/
theorem rows_sum (A : S4x1x128.Idx → EReal) (j : S_.Idx) :
    Host.reduceAdd (F := Ideal) (shapeCast S4 (extractStridedSlice S4x1x1 ![0, 0, 0] A slices_S4x1x128_S4x1x1_0_0_0) shapeCasts_S4x1x1_S4)
      (constant S_ .f32 0x00000000#32) reducesTo_S4_S_d0 h_S_ j = ∑ i : Fin 4, A (ix3 i (0 : Fin 1) (0 : Fin 128)) := by
  generalize hy : shapeCast S4 (extractStridedSlice S4x1x1 ![0, 0, 0] A slices_S4x1x128_S4x1x1_0_0_0) shapeCasts_S4x1x1_S4 = y0
  simp only [Host.reduceAdd, Ideal.hostReduceAdd_def]
  rw [Ideal.hostReduceAdd_total reducesTo_S4_S_d0 (fun b => b.elim0) y0 _ j]
  subst hy
  have hz : constant (F := Ideal) S_ .f32 0x00000000#32 (Shape.Idx.first h_S_) = (0 : EReal) := Ideal.ofBits_zero_f32
  rw [hz, zero_add]
  refine Fintype.sum_equiv idx4Equiv _ _ fun j' => ?_
  rw [eq_ix1 j']
  exact lane0_apply A (j' 0)

/-- The closing step shared by the two summed losses: eps plus the row sum, over 4096². -/
theorem loss_of_rows (A : S4x1x128.Idx → EReal) (j : S_.Idx) :
    Host.divf (F := Ideal) (addf (constant S_ .f32 0x38D1B717#32)
      (Host.reduceAdd (shapeCast S4 (extractStridedSlice S4x1x1 ![0, 0, 0] A slices_S4x1x128_S4x1x1_0_0_0) shapeCasts_S4x1x1_S4)
        (constant S_ .f32 0x00000000#32) reducesTo_S4_S_d0 h_S_)) (constant S_ .f32 0x4B800000#32) j
      = lossOf (∑ i : Fin 4, A (ix3 i (0 : Fin 1) (0 : Fin 128))) := by
  rw [← rows_sum A j]
  rfl

/-- The first loss. -/
theorem tail_loss1 (c : Dev nD) :
    (Pipeline.afterTail₀ cfgs (dats m) 0 (V0 m) [hostOps1] c main_v46 : S_.Idx → EReal)
      = fun _ => lossOf (∑ i : Fin 4, G4v m c (ix3 i (0 : Fin 1) (0 : Fin 128))) := by
  unfold Pipeline.afterTail₀
  show StableHlo.after hostOps1 _ (Proc.devRef .tc main_v46) = _
  after_results
  rw [W4 m c]
  funext j
  exact loss_of_rows (G4v m c) j

/-- The third loss. -/
theorem tail_loss3 (c : Dev nD) :
    (Pipeline.afterTail₀ cfgs (dats m) 0 (V0 m) [hostOps1] c main_v51 : S_.Idx → EReal)
      = fun _ => lossOf (∑ i : Fin 4, G5v m c (ix3 i (0 : Fin 1) (0 : Fin 128))) := by
  unfold Pipeline.afterTail₀
  show StableHlo.after hostOps1 _ (Proc.devRef .tc main_v51) = _
  after_results
  rw [W5 m c]
  funext j
  exact loss_of_rows (G5v m c) j

/-- A buffer the tail does not write and no window stages ends as the region found it. -/
theorem tail_loss0 (c : Dev nD) :
    Pipeline.afterTail₀ cfgs (dats m) 0 (V0 m) [hostOps1] c main_v23 = V m c main_v23 := by
  unfold Pipeline.afterTail₀
  rw [StableHlo.after_of_forall_not_mem (b := Proc.devRef .tc main_v23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v23 (by exact (by decide : ∀ w, Pipeline.arrRef spec0 w ≠ main_v23))]

theorem tail_loss2 (c : Dev nD) :
    Pipeline.afterTail₀ cfgs (dats m) 0 (V0 m) [hostOps1] c main_v40 = V m c main_v40 := by
  unfold Pipeline.afterTail₀
  rw [StableHlo.after_of_forall_not_mem (b := Proc.devRef .tc main_v40) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v40 (by exact (by decide : ∀ w, Pipeline.arrRef spec0 w ≠ main_v40))]

/-- The total is (loss 0 + loss 1) + (loss 2 + loss 3), each as the tail leaves it. -/
theorem tail_total (c : Dev nD) :
    (Pipeline.afterTail₀ cfgs (dats m) 0 (V0 m) [hostOps1] c main_v54 : S_.Idx → EReal)
      = addf (F := Ideal) (s := S_) (φ := .f32)
          (addf (F := Ideal) (s := S_) (φ := .f32) (V m c main_v23)
            (fun _ => lossOf (∑ i : Fin 4, G4v m c (ix3 i (0 : Fin 1) (0 : Fin 128)))))
          (addf (F := Ideal) (s := S_) (φ := .f32) (V m c main_v40)
            (fun _ => lossOf (∑ i : Fin 4, G5v m c (ix3 i (0 : Fin 1) (0 : Fin 128))))) := by
  unfold Pipeline.afterTail₀
  show StableHlo.after hostOps1 _ (Proc.devRef .tc main_v54) = _
  after_results_simp
  rw [W4 m c, W5 m c, W23 m c, W40 m c]
  refine congrArg₂ addf (congrArg₂ addf rfl ?_) (congrArg₂ addf rfl ?_)
  · funext j; exact loss_of_rows (G4v m c) j
  · funext j; exact loss_of_rows (G5v m c) j

end Cert.KernelIdeal.Tail

end
-- ==== Proof.LibSelfKLAlgebra.lean ====
/-
  The real-number algebra behind the SelfKL comparison, over abstract finite index types, with the
  extended-real forms the two programs produce on one side and plain real arithmetic on the other.

  * a finite sum of products of reals, formed on the extended reals, is the real sum;
  * the two groupings of four real numbers  (a − c) − (b − d)  and  (a − b) − (c − d)  agree;
  * (r − p) − (r − q) = q − p  for reals;
  * a sum over rows of a function of the row's class is the sum over classes of the class count times the
    function (the collapse of the second loss from rows × rows to rows × classes);
  * a sum over `Fin (m·n)` is the double sum over blocks of size `n` (the tiling of the index square).
-/
import Mathlib

noncomputable section

namespace SelfKL.Algebra

open Finset

variable {ι κ α : Type*} [Fintype ι] [Fintype κ] [DecidableEq κ]

/-- A finite sum of coerced reals is the coerced real sum. -/
theorem coe_sum (s : Finset α) (f : α → ℝ) : (∑ i ∈ s, (f i : EReal)) = ((∑ i ∈ s, f i : ℝ) : EReal) := by
  classical
  -- induction on the index set: the empty sum is 0 on both sides, and the coercion is additive
  refine Finset.induction_on s ?_ ?_
  · simp
  · intro a s ha ih
    rw [Finset.sum_insert ha, Finset.sum_insert ha, ih, EReal.coe_add]

/-- A contraction of two real rows, formed on the extended reals, is the real contraction. -/
theorem sum_coe_mul (f g : κ → ℝ) :
    (∑ c, (f c : EReal) * (g c : EReal)) = ((∑ c, f c * g c : ℝ) : EReal) := by
  -- the coercion is multiplicative termwise, then additive over the finite sum
  rw [← coe_sum Finset.univ (fun c => f c * g c)]
  exact Finset.sum_congr rfl (fun c _ => (EReal.coe_mul (f c) (g c)).symm)

/-- The kernel subtracts the row constants first, the reference the cross terms first: equal on reals. -/
theorem sub_sub_sub_comm_coe (a b c d : ℝ) :
    ((a : EReal) - (c : EReal)) - ((b : EReal) - (d : EReal)) = ((a : EReal) - (b : EReal)) - ((c : EReal) - (d : EReal)) := by
  -- both sides are coercions of real expressions, equal by commutative-ring arithmetic
  simp only [← EReal.coe_sub]
  congr 1
  ring

/-- The second loss's entry: the shared row constant cancels on reals. -/
theorem sub_sub_sub_cancel_coe (r p q : ℝ) :
    ((r : EReal) - (p : EReal)) - ((r : EReal) - (q : EReal)) = ((q - p : ℝ) : EReal) := by
  -- on reals (r − p) − (r − q) = q − p
  simp only [← EReal.coe_sub]
  congr 1
  ring

/-- The absolute value as the larger of a number and its negation, on a real. -/
theorem max_neg_coe (r : ℝ) : max (r : EReal) (-(r : EReal)) = ((|r| : ℝ) : EReal) := by
  -- negation and max commute with the coercion, and |r| = max r (−r)
  rw [← EReal.coe_neg, abs_eq_max_neg]
  exact (EReal.coe_strictMono.monotone.map_max).symm

/-- Distributing a real difference over a real contraction. -/
theorem sum_sub_mul (p q t : κ → ℝ) :
    (∑ c, q c * t c) - (∑ c, p c * t c) = ∑ c, (q c - p c) * t c := by
  -- a difference of sums is the sum of differences; then distribute termwise
  rw [← Finset.sum_sub_distrib]
  exact Finset.sum_congr rfl (fun c _ => by ring)

/-- Rows grouped by class: a sum over rows of a function of the row's class is the sum over classes of
    (number of rows of that class) × (the function at the class). -/
theorem sum_by_class (lab : ι → κ) (g : κ → ℝ) :
    ∑ j, g (lab j) = ∑ k, g k * ((univ.filter (fun j => lab j = k)).card : ℝ) := by
  classical
  -- split the rows by the value of their class; on the fibre over k the summand is constantly g k
  rw [← Finset.sum_fiberwise univ lab (fun j => g (lab j))]
  refine Finset.sum_congr rfl (fun k _ => ?_)
  have hconst : ∀ j ∈ univ.filter (fun j => lab j = k), g (lab j) = g k := by
    intro j hj
    rw [(Finset.mem_filter.mp hj).2]
  rw [Finset.sum_congr rfl hconst, Finset.sum_const, nsmul_eq_mul, mul_comm]

/-- The class count as a sum of indicators over the rows. -/
theorem card_eq_sum_ind (lab : ι → κ) (k : κ) :
    ((univ.filter (fun j => lab j = k)).card : ℝ) = ∑ j, (if lab j = k then (1 : ℝ) else 0) := by
  -- a sum of 0/1 indicators counts the indices where the condition holds
  rw [Finset.sum_boole]

/-- A sum over `Fin N`, `N = m · n`, is the double sum over `m` blocks of `n` consecutive indices. -/
theorem sum_blocks {M : Type*} [AddCommMonoid M] (m n N : ℕ) (h : m * n = N) (g : Fin N → M) :
    ∑ a : Fin N, g a = ∑ i : Fin m, ∑ r : Fin n,
      g ⟨n * i.val + r.val, by
        have hi := i.isLt; have hr := r.isLt
        calc n * i.val + r.val < n * i.val + n := by omega
          _ = n * (i.val + 1) := by ring
          _ ≤ n * m := Nat.mul_le_mul_left _ hi
          _ = N := by rw [Nat.mul_comm]; exact h⟩ := by
  subst h
  -- reindex Fin (m·n) by pairs (block, offset): the pair (i, r) is sent to the index r + n·i
  rw [← (finProdFinEquiv : Fin m × Fin n ≃ Fin (m * n)).sum_comp g, Fintype.sum_prod_type]
  refine Finset.sum_congr rfl (fun i _ => Finset.sum_congr rfl (fun r _ => ?_))
  congr 1
  apply Fin.ext
  simp only [finProdFinEquiv_apply_val]
  omega

end SelfKL.Algebra

end
-- ==== Proof.Bridge.lean ====
/-
  The three mathematical facts that join the kernel's arrangement to the reference's.

  1. On real tables the kernel's entry |(a − c) − (b − d)| is the reference's |(a − b) − (c − d)|.
  2. The second loss: on real tables the reference's entry is |Σ_c (LT[a,c] − LS[a,c])·T[b,c]| (the shared row constant
     cancels, the difference distributes over the contraction); a target row depends on its row only through the row's
     class, so the sum over the 4096 rows b collapses to the sum over the three classes weighted by the class counts.
  3. The 4096 × 4096 square is tiled by 4 × 8 blocks of 1024 × 512 entries: a sum over the square is the sum over the
     blocks of the block sums.  Sums on the extended reals commute and associate, so this needs no finiteness.
-/
import proofs.«176446_j53927609369062_2_alg».proof.Proof.Spec
import proofs.«176446_j53927609369062_2_alg».proof.Proof.LibSelfKLAlgebra

noncomputable section

namespace SelfKL.Bridge

open Idealize.ShloMosaic Idealize.ShloMosaic.ValueIdx SelfKL Finset

/-- The kernel's entry is the reference's, on real tables. -/
theorem kerTerm_eq_refTerm (S LS T LT X : Tab) (hS : IsReal S) (hLS : IsReal LS) (hT : IsReal T) (hLT : IsReal LT)
    (hX : IsReal X) (a b : Fin 4096) : kerTerm S LS T LT X a b = refTerm S LS T LT X a b := by
  obtain ⟨s, hs⟩ := hS
  obtain ⟨ls, hls⟩ := hLS
  obtain ⟨t, ht⟩ := hT
  obtain ⟨lt, hlt⟩ := hLT
  obtain ⟨x, hx⟩ := hX
  unfold kerTerm refTerm dot
  -- every contraction is a coerced real sum; the two groupings of the four reals agree
  simp only [hs, hls, ht, hlt, hx, SelfKL.Algebra.sum_coe_mul]
  exact congrArg absE (SelfKL.Algebra.sub_sub_sub_comm_coe _ _ _ _)

/-- Hence the two sums over the square agree. -/
theorem total_kerTerm (S LS T LT X : Tab) (hS : IsReal S) (hLS : IsReal LS) (hT : IsReal T) (hLT : IsReal LT)
    (hX : IsReal X) : total (kerTerm S LS T LT X) = total (refTerm S LS T LT X) := by
  unfold total
  exact Finset.sum_congr rfl fun a _ => Finset.sum_congr rfl fun b _ =>
    kerTerm_eq_refTerm S LS T LT X hS hLS hT hLT hX a b

/-- The collapse of the second loss: rows × classes weighted by the class counts is rows × rows. -/
theorem kerSum2_eq (LS T LT : Tab) (TT : (⟨2, ![3, 3]⟩ : Shape).Idx → EReal) (cnt : (⟨1, ![3]⟩ : Shape).Idx → EReal)
    (lab : Fin 4096 → Fin 3) (hLS : IsReal LS) (hT : IsReal T) (hLT : IsReal LT)
    (hTTr : ∀ k c : Fin 3, ∃ r : ℝ, TT (ix2 k c) = (r : EReal))
    (hTT : ∀ (b : Fin 4096) (c : Fin 3), T (ix2 b c) = TT (ix2 (lab b) c))
    (hcnt : ∀ k : Fin 3, cnt (ix1 k) = ∑ j : Fin 4096, (if lab j = k then (1 : EReal) else 0)) :
    kerSum2 LS LT TT cnt = total (refTerm2 LS T LT) := by
  obtain ⟨ls, hls⟩ := hLS
  obtain ⟨t, ht⟩ := hT
  obtain ⟨lt, hlt⟩ := hLT
  choose tt htt using hTTr
  -- a target row is the row of its class, as an equation between reals
  have hteq : ∀ (b : Fin 4096) (c : Fin 3), t b c = tt (lab b) c := by
    intro b c
    have h := hTT b c
    rw [ht, htt] at h
    exact EReal.coe_eq_coe_iff.mp h
  -- the class count is a (coerced) natural number
  have hcnt' : ∀ k : Fin 3, cnt (ix1 k) = (((univ.filter (fun j => lab j = k)).card : ℝ) : EReal) := by
    intro k
    rw [hcnt k, SelfKL.Algebra.card_eq_sum_ind lab k, ← SelfKL.Algebra.coe_sum]
    refine Finset.sum_congr rfl fun j _ => ?_
    split_ifs
    · exact EReal.coe_one.symm
    · exact EReal.coe_zero.symm
  -- the reference's entry: the row constant cancels, the difference distributes over the contraction
  have entry : ∀ a b : Fin 4096,
      refTerm2 LS T LT a b = ((|∑ c, (lt a c - ls a c) * tt (lab b) c| : ℝ) : EReal) := by
    intro a b
    unfold refTerm2 dot
    simp only [hls, ht, hlt, SelfKL.Algebra.sum_coe_mul]
    rw [SelfKL.Algebra.sub_sub_sub_cancel_coe]
    unfold absE
    rw [SelfKL.Algebra.max_neg_coe, SelfKL.Algebra.sum_sub_mul (ls a) (lt a) (t b)]
    simp only [hteq]
  -- rows × rows: the sum over the rows b depends on b through its class only
  have rhs : ∀ a : Fin 4096, ∑ b : Fin 4096, refTerm2 LS T LT a b
      = ((∑ k : Fin 3, |∑ c, (lt a c - ls a c) * tt k c| * ((univ.filter (fun j => lab j = k)).card : ℝ) : ℝ) : EReal) := by
    intro a
    simp only [entry]
    rw [SelfKL.Algebra.coe_sum, SelfKL.Algebra.sum_by_class lab (fun k => |∑ c, (lt a c - ls a c) * tt k c|)]
  -- rows × classes: each summand is the coerced real product
  have lhs : ∀ a : Fin 4096,
      ∑ k : Fin 3, absE (∑ c : Fin 3, (LT (ix2 a c) - LS (ix2 a c)) * TT (ix2 k c)) * cnt (ix1 k)
      = ((∑ k : Fin 3, |∑ c, (lt a c - ls a c) * tt k c| * ((univ.filter (fun j => lab j = k)).card : ℝ) : ℝ) : EReal) := by
    intro a
    rw [← SelfKL.Algebra.coe_sum]
    refine Finset.sum_congr rfl fun k _ => ?_
    rw [EReal.coe_mul, ← hcnt' k, ← SelfKL.Algebra.max_neg_coe, ← SelfKL.Algebra.coe_sum]
    simp only [hlt, hls, htt, EReal.coe_mul, EReal.coe_sub]
    rfl
  unfold kerSum2 total
  exact Finset.sum_congr rfl fun a _ => (lhs a).trans (rhs a).symm

/-- The tiling of the square by 4 × 8 blocks of 1024 × 512 entries. -/
theorem sum_tiles (g : ℕ → ℕ → EReal) :
    ∑ i : Fin 4, ∑ k ∈ range 8, ∑ r : Fin 1024, ∑ q : Fin 512, g (1024 * i.val + r.val) (512 * k + q.val)
      = ∑ a : Fin 4096, ∑ b : Fin 4096, g a.val b.val := by
  -- the rows in 4 blocks of 1024, and for a fixed row the columns in 8 blocks of 512
  have hrow : ∑ a : Fin 4096, ∑ b : Fin 4096, g a.val b.val
      = ∑ i : Fin 4, ∑ r : Fin 1024, ∑ b : Fin 4096, g (1024 * i.val + r.val) b.val :=
    SelfKL.Algebra.sum_blocks 4 1024 4096 (by norm_num) (fun a : Fin 4096 => ∑ b : Fin 4096, g a.val b.val)
  have hcol : ∀ x : ℕ, ∑ b : Fin 4096, g x b.val = ∑ k : Fin 8, ∑ q : Fin 512, g x (512 * k.val + q.val) :=
    fun x => SelfKL.Algebra.sum_blocks 8 512 4096 (by norm_num) (fun b : Fin 4096 => g x b.val)
  rw [hrow]
  refine Finset.sum_congr rfl fun i _ => ?_
  -- the block index of the columns as an element of Fin 8, then exchange it with the row offset
  rw [Finset.sum_range, Finset.sum_comm]
  exact Finset.sum_congr rfl fun r _ => (hcol _).symm

end SelfKL.Bridge

end
-- ==== Proof.KernelBlocks.lean ====
/-
  The block sums, over the whole tables.

  Every input window stages its whole [4096, 3] table, so a window's block at any grid point is the table itself.  At grid
  point n (row n / 8, column n % 8) the body loads rows 1024·(n / 8) + r, r < 1024, of each table and rows
  512·(n % 8) + q, q < 512, of two of them; the entry it forms at (r, q) is therefore the kernel's pairwise entry of the
  tables at (1024·(n / 8) + r, 512·(n % 8) + q).  The 4 × 8 blocks tile the 4096 × 4096 square, so the four rows of a
  result array sum to the sum of the kernel's entries over the whole square.
-/
import proofs.«176446_j53927609369062_2_alg».proof.Proof.KernelArray
import proofs.«176446_j53927609369062_2_alg».proof.Proof.Spec
import proofs.«176446_j53927609369062_2_alg».proof.Proof.Bridge

set_option maxRecDepth 16384

noncomputable section

namespace Cert.KernelIdeal.Blocks

open Cert.KernelIdeal Cert.KernelIdeal.Gen Cert.KernelIdeal.Pieces Cert.KernelIdeal.Payload Cert.KernelIdeal.Accum Cert.KernelIdeal.Arr
open Idealize.ShloMosaic Idealize.ShloMosaic.TcCoe Idealize.ShloMosaic.ValueIdx Idealize.SL.Sem SelfKL

variable (m : (ℓ : Loc nD τ sig) → Buf (Elt Ideal) ℓ)

/-- The four tables as the region finds them. -/
abbrev tS (c : Dev nD) : Tab := V m c main_v16
abbrev tLS (c : Dev nD) : Tab := V m c main_v17
abbrev tT (c : Dev nD) : Tab := V m c main_v5
abbrev tLT (c : Dev nD) : Tab := V m c main_v18

/-- The four input windows' index maps are constantly zero: each block starts at the table's origin. -/
theorem widx0 : ∀ t : Fin cfg0.N, win0_0.index t 0 = 0 ∧ win0_0.index t 1 = 0 :=
  (by decide +kernel : ∀ t : Fin grid0.N, win0_0.index t 0 = 0 ∧ win0_0.index t 1 = 0)
theorem widx1 : ∀ t : Fin cfg0.N, win0_1.index t 0 = 0 ∧ win0_1.index t 1 = 0 :=
  (by decide +kernel : ∀ t : Fin grid0.N, win0_1.index t 0 = 0 ∧ win0_1.index t 1 = 0)
theorem widx2 : ∀ t : Fin cfg0.N, win0_2.index t 0 = 0 ∧ win0_2.index t 1 = 0 :=
  (by decide +kernel : ∀ t : Fin grid0.N, win0_2.index t 0 = 0 ∧ win0_2.index t 1 = 0)
theorem widx3 : ∀ t : Fin cfg0.N, win0_3.index t 0 = 0 ∧ win0_3.index t 1 = 0 :=
  (by decide +kernel : ∀ t : Fin grid0.N, win0_3.index t 0 = 0 ∧ win0_3.index t 1 = 0)

/-- An input window's block is its whole table, at every point. -/
theorem iblk0 (c : Dev nD) (t : Fin cfg0.N) : (iblk m c 0 t : Tab) = tS m c := by
  funext j
  unfold iblk
  rw [View.read_apply]
  show V m c main_v16 _ = V m c main_v16 j
  congr 1
  funext a
  apply Fin.ext
  match a with
  | ⟨0, _⟩ => show win0_0.index t 0 * 4096 + 1 * (j 0).val = (j 0).val; rw [(widx0 t).1]; omega
  | ⟨1, _⟩ => show win0_0.index t 1 * 3 + 1 * (j 1).val = (j 1).val; rw [(widx0 t).2]; omega
theorem iblk1 (c : Dev nD) (t : Fin cfg0.N) : (iblk m c 1 t : Tab) = tLS m c := by
  funext j
  unfold iblk
  rw [View.read_apply]
  show V m c main_v17 _ = V m c main_v17 j
  congr 1
  funext a
  apply Fin.ext
  match a with
  | ⟨0, _⟩ => show win0_1.index t 0 * 4096 + 1 * (j 0).val = (j 0).val; rw [(widx1 t).1]; omega
  | ⟨1, _⟩ => show win0_1.index t 1 * 3 + 1 * (j 1).val = (j 1).val; rw [(widx1 t).2]; omega
theorem iblk2 (c : Dev nD) (t : Fin cfg0.N) : (iblk m c 2 t : Tab) = tT m c := by
  funext j
  unfold iblk
  rw [View.read_apply]
  show V m c main_v5 _ = V m c main_v5 j
  congr 1
  funext a
  apply Fin.ext
  match a with
  | ⟨0, _⟩ => show win0_2.index t 0 * 4096 + 1 * (j 0).val = (j 0).val; rw [(widx2 t).1]; omega
  | ⟨1, _⟩ => show win0_2.index t 1 * 3 + 1 * (j 1).val = (j 1).val; rw [(widx2 t).2]; omega
theorem iblk3 (c : Dev nD) (t : Fin cfg0.N) : (iblk m c 3 t : Tab) = tLT m c := by
  funext j
  unfold iblk
  rw [View.read_apply]
  show V m c main_v18 _ = V m c main_v18 j
  congr 1
  funext a
  apply Fin.ext
  match a with
  | ⟨0, _⟩ => show win0_3.index t 0 * 4096 + 1 * (j 0).val = (j 0).val; rw [(widx3 t).1]; omega
  | ⟨1, _⟩ => show win0_3.index t 1 * 3 + 1 * (j 1).val = (j 1).val; rw [(widx3 t).2]; omega

/-- The row offset a grid point loads from: 1024 times its grid row for the row block, 512 times its grid column for the
    column block; the class offset is zero. -/
theorem off1 : ∀ t : Fin cfg0.N, k0_off1 (grid0.coords t) 0 = 1024 * (t.val / 8) ∧ k0_off1 (grid0.coords t) 1 = 0 :=
  (by decide +kernel : ∀ t : Fin grid0.N, k0_off1 (grid0.coords t) 0 = 1024 * (t.val / 8) ∧ k0_off1 (grid0.coords t) 1 = 0)
theorem off2 : ∀ t : Fin cfg0.N, k0_off2 (grid0.coords t) 0 = 512 * (t.val % 8) ∧ k0_off2 (grid0.coords t) 1 = 0 :=
  (by decide +kernel : ∀ t : Fin grid0.N, k0_off2 (grid0.coords t) 0 = 512 * (t.val % 8) ∧ k0_off2 (grid0.coords t) 1 = 0)

/-- The rows a grid point loads for its row block, and for its column block. -/
theorem rowsI_apply (t : Fin cfg0.N) (x : Vec Ideal S4096x3 .f32) (r : Fin 1024) (cc : Fin 3) :
    rowsI (grid0.coords t) x (ix2 r cc)
      = x (ix2 (⟨1024 * (t.val / 8) + r.val, by have := t.isLt; have := r.isLt; have hN : cfg0.N = 32 := N_0; omega⟩ : Fin 4096) cc) := by
  unfold rowsI
  refine congrArg x ?_
  funext a
  apply Fin.ext
  match a with
  | ⟨0, _⟩ =>
    show k0_off1 (grid0.coords t) 0 + 1 * r.val = 1024 * (t.val / 8) + r.val
    rw [(off1 t).1]; omega
  | ⟨1, _⟩ =>
    show k0_off1 (grid0.coords t) 1 + 1 * cc.val = cc.val
    rw [(off1 t).2]; omega
theorem rowsJ_apply (t : Fin cfg0.N) (x : Vec Ideal S4096x3 .f32) (q : Fin 512) (cc : Fin 3) :
    rowsJ (grid0.coords t) x (ix2 q cc)
      = x (ix2 (⟨512 * (t.val % 8) + q.val, by have := q.isLt; omega⟩ : Fin 4096) cc) := by
  unfold rowsJ
  refine congrArg x ?_
  funext a
  apply Fin.ext
  match a with
  | ⟨0, _⟩ =>
    show k0_off2 (grid0.coords t) 0 + 1 * q.val = 512 * (t.val % 8) + q.val
    rw [(off2 t).1]; omega
  | ⟨1, _⟩ =>
    show k0_off2 (grid0.coords t) 1 + 1 * cc.val = cc.val
    rw [(off2 t).2]; omega

/-- The kernel's entry over the whole square, extended by zero off the square (so that sums over blocks can be written with
    natural-number positions). -/
def g (S LS T LT X : Tab) (a b : ℕ) : EReal :=
  if h : a < 4096 ∧ b < 4096 then kerTerm S LS T LT X ⟨a, h.1⟩ ⟨b, h.2⟩ else 0

/-- A grid point's entry at (r, q), formed from the rows it loads of any five tables, is the kernel's pairwise entry of
    those tables at (1024·(row of the point) + r, 512·(column of the point) + q). -/
theorem entry_tile (S LS T LT X : Tab) (t : Fin cfg0.N) (r : Fin 1024) (q : Fin 512) :
    Payload.entry (rowsI (F := Ideal) (grid0.coords t) S) (rowsI (F := Ideal) (grid0.coords t) LS)
        (rowsI (F := Ideal) (grid0.coords t) T) (rowsI (F := Ideal) (grid0.coords t) LT)
        (rowsJ (F := Ideal) (grid0.coords t) LS) (rowsJ (F := Ideal) (grid0.coords t) X) r q
      = g S LS T LT X (1024 * (t.val / 8) + r.val) (512 * (t.val % 8) + q.val) := by
  have ha : 1024 * (t.val / 8) + r.val < 4096 := by
    have := t.isLt; have := r.isLt; have hN : cfg0.N = 32 := N_0; omega
  have hb : 512 * (t.val % 8) + q.val < 4096 := by have := q.isLt; omega
  unfold Payload.entry g
  rw [dif_pos ⟨ha, hb⟩]
  unfold kerTerm absE rdot dot
  simp only [rowsI_apply, rowsJ_apply]

/-- Hence a grid point's block sum is the sum of the kernel's entries over its 1024 × 512 tile. -/
theorem blockSum_tile (S LS T LT X : Tab) (t : Fin cfg0.N) :
    blockSum (rowsI (F := Ideal) (grid0.coords t) S) (rowsI (F := Ideal) (grid0.coords t) LS)
        (rowsI (F := Ideal) (grid0.coords t) T) (rowsI (F := Ideal) (grid0.coords t) LT)
        (rowsJ (F := Ideal) (grid0.coords t) LS) (rowsJ (F := Ideal) (grid0.coords t) X)
      = ∑ r : Fin 1024, ∑ q : Fin 512, g S LS T LT X (1024 * (t.val / 8) + r.val) (512 * (t.val % 8) + q.val) :=
  Finset.sum_congr rfl fun r _ => Finset.sum_congr rfl fun q _ => entry_tile S LS T LT X t r q

/-- The same for tables given up to equality: the form the two block sums are read in. -/
theorem blockSum_tile_of (S LS T LT : Tab) (t : Fin cfg0.N) (x0 x1 x2 x3 : Vec Ideal S4096x3 .f32)
    (h0 : x0 = S) (h1 : x1 = LS) (h2 : x2 = T) (h3 : x3 = LT) :
    blockSum (rowsI (grid0.coords t) x0) (rowsI (grid0.coords t) x1) (rowsI (grid0.coords t) x2)
        (rowsI (grid0.coords t) x3) (rowsJ (grid0.coords t) x1) (rowsJ (grid0.coords t) x3)
      = ∑ r : Fin 1024, ∑ q : Fin 512, g S LS T LT LT (1024 * (t.val / 8) + r.val) (512 * (t.val % 8) + q.val) := by
  subst h0 h1 h2 h3
  exact blockSum_tile x0 x1 x2 x3 x3 t

theorem blockSum_tile_of' (S LS T LT : Tab) (t : Fin cfg0.N) (x0 x1 x2 x3 : Vec Ideal S4096x3 .f32)
    (h0 : x0 = S) (h1 : x1 = LS) (h2 : x2 = T) (h3 : x3 = LT) :
    blockSum (rowsI (grid0.coords t) x0) (rowsI (grid0.coords t) x1) (rowsI (grid0.coords t) x2)
        (rowsI (grid0.coords t) x3) (rowsJ (grid0.coords t) x1) (rowsJ (grid0.coords t) x1)
      = ∑ r : Fin 1024, ∑ q : Fin 512, g S LS T LT LS (1024 * (t.val / 8) + r.val) (512 * (t.val % 8) + q.val) := by
  subst h0 h1 h2 h3
  exact blockSum_tile x0 x1 x2 x3 x1 t

/-- The block sum a grid point forms from its four windows' blocks, for the first loss. -/
theorem blockSum_point1 (c : Dev nD) (t : Fin cfg0.N) :
    blockSum (rowsI (grid0.coords t) (X0 m c t)) (rowsI (grid0.coords t) (X1 m c t)) (rowsI (grid0.coords t) (X2 m c t))
        (rowsI (grid0.coords t) (X3 m c t)) (rowsJ (grid0.coords t) (X1 m c t)) (rowsJ (grid0.coords t) (X3 m c t))
      = ∑ r : Fin 1024, ∑ q : Fin 512,
          g (tS m c) (tLS m c) (tT m c) (tLT m c) (tLT m c) (1024 * (t.val / 8) + r.val) (512 * (t.val % 8) + q.val) :=
  blockSum_tile_of (tS m c) (tLS m c) (tT m c) (tLT m c) t (X0 m c t) (X1 m c t) (X2 m c t) (X3 m c t)
    (iblk0 m c t) (iblk1 m c t) (iblk2 m c t) (iblk3 m c t)

/-- The same for the third loss, whose cross term is against the log S rows. -/
theorem blockSum_point3 (c : Dev nD) (t : Fin cfg0.N) :
    blockSum (rowsI (grid0.coords t) (X0 m c t)) (rowsI (grid0.coords t) (X1 m c t)) (rowsI (grid0.coords t) (X2 m c t))
        (rowsI (grid0.coords t) (X3 m c t)) (rowsJ (grid0.coords t) (X1 m c t)) (rowsJ (grid0.coords t) (X1 m c t))
      = ∑ r : Fin 1024, ∑ q : Fin 512,
          g (tS m c) (tLS m c) (tT m c) (tLT m c) (tLS m c) (1024 * (t.val / 8) + r.val) (512 * (t.val % 8) + q.val) :=
  blockSum_tile_of' (tS m c) (tLS m c) (tT m c) (tLT m c) t (X0 m c t) (X1 m c t) (X2 m c t) (X3 m c t)
    (iblk0 m c t) (iblk1 m c t) (iblk2 m c t) (iblk3 m c t)

/-- On the square the extension by zero is the kernel's entry itself. -/
theorem g_on_square (S LS T LT X : Tab) (a b : Fin 4096) : g S LS T LT X a.val b.val = kerTerm S LS T LT X a b := by
  unfold g
  rw [dif_pos ⟨a.isLt, b.isLt⟩]

/-- Point n's block sum of the first loss is the sum of the kernel's entries over its 1024 × 512 tile. -/
theorem P1_tile (c : Dev nD) (n : ℕ) (h : n < cfg0.N) :
    P1 m c n = ∑ r : Fin 1024, ∑ q : Fin 512,
      g (tS m c) (tLS m c) (tT m c) (tLT m c) (tLT m c) (1024 * (n / 8) + r.val) (512 * (n % 8) + q.val) := by
  unfold P1
  rw [dif_pos h]
  exact blockSum_point1 m c ⟨n, h⟩

/-- The same for the third loss, whose cross term is against log S. -/
theorem P3_tile (c : Dev nD) (n : ℕ) (h : n < cfg0.N) :
    P3 m c n = ∑ r : Fin 1024, ∑ q : Fin 512,
      g (tS m c) (tLS m c) (tT m c) (tLT m c) (tLS m c) (1024 * (n / 8) + r.val) (512 * (n % 8) + q.val) := by
  unfold P3
  rw [dif_pos h]
  exact blockSum_point3 m c ⟨n, h⟩

/-- The two tile lemmas with the point's grid row and column named: point n = 8·a + b has row a and column b. -/
theorem P1_tile_at (c : Dev nD) (n a b : ℕ) (h : n < cfg0.N) (ha : n / 8 = a) (hb : n % 8 = b) :
    P1 m c n = ∑ r : Fin 1024, ∑ q : Fin 512,
      g (tS m c) (tLS m c) (tT m c) (tLT m c) (tLT m c) (1024 * a + r.val) (512 * b + q.val) := by
  subst ha hb
  exact P1_tile m c n h

theorem P3_tile_at (c : Dev nD) (n a b : ℕ) (h : n < cfg0.N) (ha : n / 8 = a) (hb : n % 8 = b) :
    P3 m c n = ∑ r : Fin 1024, ∑ q : Fin 512,
      g (tS m c) (tLS m c) (tT m c) (tLT m c) (tLS m c) (1024 * a + r.val) (512 * b + q.val) := by
  subst ha hb
  exact P3_tile m c n h

-- A point's block sum enters what follows only through the two tile lemmas.
attribute [local irreducible] P1 P3

/-- Thirty-two quantities, the one at 8·i + k being the sum of the kernel's entries over tile (i, k), sum to the kernel's
    entries over the whole square: the 4 × 8 tiles cover it, and on the square the extension by zero is the entry. -/
theorem rows_total (S LS T LT X : Tab) (P : ℕ → EReal)
    (hP : ∀ i k : ℕ, i < 4 → k < 8 → P (8 * i + k)
      = ∑ r : Fin 1024, ∑ q : Fin 512, g S LS T LT X (1024 * i + r.val) (512 * k + q.val)) :
    ∑ i : Fin 4, ∑ k ∈ Finset.range 8, P (8 * i.val + k) = total (kerTerm S LS T LT X) := by
  have step : ∀ i : Fin 4, ∑ k ∈ Finset.range 8, P (8 * i.val + k)
      = ∑ k ∈ Finset.range 8, ∑ r : Fin 1024, ∑ q : Fin 512, g S LS T LT X (1024 * i.val + r.val) (512 * k + q.val) :=
    fun i => Finset.sum_congr rfl fun k hk => hP i.val k i.isLt (Finset.mem_range.mp hk)
  refine (Finset.sum_congr rfl fun i _ => step i).trans ?_
  refine (Bridge.sum_tiles (g S LS T LT X)).trans ?_
  exact Finset.sum_congr rfl fun a _ => Finset.sum_congr rfl fun b _ => g_on_square S LS T LT X a b

/-- The four rows of the first result array sum to the kernel's entries over the whole square. -/
theorem G4_total (c : Dev nD) :
    ∑ i : Fin 4, G4v m c (ix3 i (0 : Fin 1) (0 : Fin 128)) = total (kerTerm (tS m c) (tLS m c) (tT m c) (tLT m c) (tLT m c)) := by
  have hN : cfg0.N = 32 := N_0
  -- row i of the array holds the eight block sums of grid row i
  refine (Finset.sum_congr rfl fun i _ => G4v_row m c i).trans ?_
  exact rows_total (tS m c) (tLS m c) (tT m c) (tLT m c) (tLT m c) (P1 m c) fun i k hi hk =>
    P1_tile_at m c (8 * i + k) i k (by omega) (by omega) (by omega)

theorem G5_total (c : Dev nD) :
    ∑ i : Fin 4, G5v m c (ix3 i (0 : Fin 1) (0 : Fin 128)) = total (kerTerm (tS m c) (tLS m c) (tT m c) (tLT m c) (tLS m c)) := by
  have hN : cfg0.N = 32 := N_0
  -- row i of the array holds the eight block sums of grid row i
  refine (Finset.sum_congr rfl fun i _ => G5v_row m c i).trans ?_
  exact rows_total (tS m c) (tLS m c) (tT m c) (tLT m c) (tLS m c) (P3 m c) fun i k hi hk =>
    P3_tile_at m c (8 * i + k) i k (by omega) (by omega) (by omega)

end Cert.KernelIdeal.Blocks

end
-- ==== Proof.LibSoftmaxReal.lean ====
/-
  Real-valuedness of a softmax row and of a clipped indicator, read on the extended reals.

  For a row of real logits the row maximum is a real; exp of a real difference is a positive real; the quotient
  by the (positive, real) row sum is a positive real; and the logarithm of a positive real is a real.  A clipped
  indicator is eps or 1, both positive reals, so its logarithm is a real as well.  These facts keep every
  intermediate of the SelfKL objective away from the infinities, where regrouping differences would fail.
-/
import Idealize.ShloMosaic.PureOps.Ideal
import Idealize.ShloMosaic.PureOps.Ideal.Laws
import Idealize.ShloMosaic.Lib.ValueIdx

noncomputable section

namespace SelfKL.SoftmaxReal

open Idealize.ShloMosaic

/-- exp of a difference of reals is the positive real `Real.exp (x − μ)`. -/
theorem exp_sub_coe (x μ : ℝ) : Ideal.exp ((x : EReal) - (μ : EReal)) = ((Real.exp (x - μ) : ℝ) : EReal) := by
  rw [← EReal.coe_sub, Ideal.exp_coe]

/-- The logarithm of a positive real is a real. -/
theorem log_coe_pos (s : ℝ) (hs : 0 < s) : Ideal.log (s : EReal) = ((Real.log s : ℝ) : EReal) := by
  rw [Ideal.log_coe, if_neg (not_le.mpr hs)]

/-- A positive real divided by (zero plus) a sum of three positive reals is a positive real. -/
theorem div_sum_pos (e : Fin 3 → ℝ) (he : ∀ k, 0 < e k) (c : Fin 3) :
    ∃ s : ℝ, 0 < s ∧ Ideal.div (e c : EReal) ((0 : EReal) + ∑ k, (e k : EReal)) = (s : EReal) := by
  -- the divisor is the coerced real sum e 0 + e 1 + e 2, which is positive, hence nonzero
  have hsum : (0 : EReal) + ∑ k, (e k : EReal) = ((e 0 + e 1 + e 2 : ℝ) : EReal) := by
    rw [zero_add, Fin.sum_univ_three, EReal.coe_add, EReal.coe_add]
  have hpos : 0 < e 0 + e 1 + e 2 := add_pos (add_pos (he 0) (he 1)) (he 2)
  refine ⟨e c * (1 / (e 0 + e 1 + e 2)), mul_pos (he c) (one_div_pos.mpr hpos), ?_⟩
  rw [hsum, Ideal.div_coe hpos.ne', ← EReal.coe_mul]

/-- The larger of −∞ and a real is that real; the larger of two reals is a real. -/
theorem max_bot_coe (r : ℝ) : max (⊥ : EReal) (r : EReal) = (r : EReal) := by
  exact max_eq_right bot_le

/-- The f32 word of −∞ denotes the bottom of the extended reals. -/
theorem ofBits_neg_inf : Ideal.ofBits .f32 0xFF800000#32 = (⊥ : EReal) := by
  simp [Ideal.ofBits, Ideal.ieee]

/-- The f32 word 1.0 denotes the real 1. -/
theorem ofBits_one : Ideal.ofBits .f32 0x3F800000#32 = ((1 : ℝ) : EReal) := by
  -- exponent field 127, zero fraction: 2^23 · 2^(-23) = 1
  simp [Ideal.ofBits, Ideal.ieee]
  rw [← EReal.coe_mul]
  norm_num

/-- The f32 word nearest 1e-4 denotes a positive real (below 1). -/
theorem ofBits_eps : ∃ ε : ℝ, 0 < ε ∧ ε < 1 ∧ Ideal.ofBits .f32 0x38D1B717#32 = (ε : EReal) := by
  -- exponent field 113, significand 2^23 + 0x51B717 = 13743895: the value is 13743895 · 2^(-37)
  refine ⟨13743895 * (2 : ℝ) ^ (-37 : ℤ), by positivity, ?_, ?_⟩
  · norm_num
  · simp [Ideal.ofBits, Ideal.ieee]

/-- The f32 word 2^24 denotes the real 16777216; 4096.0 the real 4096. -/
theorem ofBits_two_pow_24 : Ideal.ofBits .f32 0x4B800000#32 = ((16777216 : ℝ) : EReal) := by
  -- exponent field 151, zero fraction: 2^23 · 2^1
  simp [Ideal.ofBits, Ideal.ieee]
  rw [← EReal.coe_mul]
  norm_num
theorem ofBits_4096 : Ideal.ofBits .f32 0x45800000#32 = ((4096 : ℝ) : EReal) := by
  -- exponent field 139, zero fraction: 2^23 · 2^(-11)
  simp [Ideal.ofBits, Ideal.ieee]
  rw [← EReal.coe_mul]
  norm_num

/-- Clipping an indicator (0 or 1) into [eps, 1] and scaling by the weight 1 gives eps or 1. -/
theorem clip_ind (ε : ℝ) (h0 : 0 < ε) (h1 : ε < 1) (b : Bool) :
    min ((1 : ℝ) : EReal) (max (ε : EReal) (if b then ((1 : ℝ) : EReal) else ((0 : ℝ) : EReal))) * ((1 : ℝ) : EReal)
      = ((if b then (1 : ℝ) else ε : ℝ) : EReal) := by
  have h0' : (0 : EReal) ≤ (ε : EReal) := by exact_mod_cast h0.le
  have h1' : (ε : EReal) ≤ (1 : EReal) := by exact_mod_cast h1.le
  cases b
  · -- indicator 0: the larger of ε and 0 is ε, and the smaller of 1 and ε is ε
    simp [max_eq_left h0', min_eq_right h1']
  · -- indicator 1: the larger of ε and 1 is 1, and the smaller of 1 and 1 is 1
    simp [max_eq_right h1']

end SelfKL.SoftmaxReal

end
-- ==== Proof.LibBitWords.lean ====
/-
  Truth values as machine words, and those words as extended reals.

  A comparison yields one bit. A kernel widens the bit to 32 bits and converts it as a signed integer; a host program
  converts the bit as an unsigned integer; either way the float is 1 for true and 0 for false. Also: the comparison
  "equal" of two naturals below 2³² carried as 32-bit words is their equality; a select on a decided bit is the `if`;
  the float comparisons "equal" and "not equal" of two extended reals are the decided propositions; and one minus the
  indicator of a condition is the indicator of its negation. Nothing here mentions a program or a shape.
-/
import Idealize.ShloMosaic.PureOps.Ideal

noncomputable section

namespace BitWords

open Idealize.ShloMosaic

/-- A truth value as one bit, widened to 32 bits and converted as a SIGNED integer, is 1 or 0. -/
theorem signed_ofBool (p : Bool) :
    FloatOps.sitofp (F := Ideal) .f32 ((BitVec.ofBool p).setWidth 32) = if p then (1 : EReal) else 0 := by
  show ((((BitVec.ofBool p).setWidth 32).toInt : ℝ) : EReal) = _
  cases p
  · have h : ((BitVec.ofBool false).setWidth 32).toInt = 0 := by decide
    rw [h]; simp
  · have h : ((BitVec.ofBool true).setWidth 32).toInt = 1 := by decide
    rw [h]; simp

/-- A truth value as one bit converted as an UNSIGNED integer is 1 or 0. -/
theorem unsigned_ofBool (p : Bool) :
    FloatOps.uitofp (F := Ideal) .f32 (BitVec.ofBool p) = if p then (1 : EReal) else 0 := by
  show (((BitVec.ofBool p).toNat : ℝ) : EReal) = _
  cases p
  · have h : (BitVec.ofBool false).toNat = 0 := by decide
    rw [h]; simp
  · have h : (BitVec.ofBool true).toNat = 1 := by decide
    rw [h]; simp

/-- Two naturals below 2³² are equal as 32-bit words exactly when they are equal. -/
theorem cmpi_eq_ofNat (a b : Nat) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  by_cases h : a = b
  · subst h; simp
  · rw [decide_eq_false h]
    refine beq_false_of_ne fun e => h ?_
    have e' := congrArg BitVec.toNat e
    rw [BitVec.toNat_ofNat, BitVec.toNat_ofNat] at e'
    omega

/-- A select on a decided bit is the `if`. -/
theorem select_ofBool {α : Type} (p : Bool) (a b : α) : Scalar.select (BitVec.ofBool p) a b = if p then a else b := by
  cases p
  · exact if_neg (by decide)
  · exact if_pos rfl

/-- The comparison "equal" of two extended reals, as a bit. -/
theorem cmp_oeq (x y : EReal) : FloatOps.cmpf (F := Ideal) (φ := .f32) .oeq x y = BitVec.ofBool (decide (x = y)) := rfl
/-- The comparison "not equal" of two extended reals, as a bit. -/
theorem cmp_one (x y : EReal) : FloatOps.cmpf (F := Ideal) (φ := .f32) .one x y = BitVec.ofBool (decide (x ≠ y)) := rfl

/-- One minus the indicator of a condition is the indicator of its negation. -/
theorem one_sub_ind (p : Prop) [Decidable p] : (1 : EReal) - (if p then 1 else 0) = if p then 0 else 1 := by
  by_cases h : p
  · rw [if_pos h, if_pos h]
    rw [← EReal.coe_one, ← EReal.coe_sub]; simp
  · rw [if_neg h, if_neg h]
    rw [← EReal.coe_one, ← EReal.coe_zero, ← EReal.coe_sub]; simp

end BitWords

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KernelHost.lean ====
/-
  The host operations of the kernel program before its region.

  The four tables the region is launched on — softmax S (%16), log S (%17), clipped target T (%5), log T (%18) — and the
  cross-entropy term (%23) are computed by the same operations as the reference's, so they are the reference's terms
  of the same inputs.  Only the kernel computes the second loss on the host: the 3 × 3 table of the three possible
  target rows (%28: 1 on the diagonal, eps off it), the number of rows of each class (%30: the column sums of the
  one-hot labels), the products of log T − log S with the transposed class table (%33), and the weighted sum of their
  absolute values (%38), to which eps is added and which is divided by 4096² (%40).
-/
import proofs.«176446_j53927609369062_2_alg».proof.Proof.Gen.KernelIdeal.Frame
import proofs.«176446_j53927609369062_2_alg».proof.Proof.Gen.ReferenceIdeal.Read
import proofs.«176446_j53927609369062_2_alg».proof.Proof.Spec
import proofs.«176446_j53927609369062_2_alg».proof.Proof.LibSoftmaxReal
import proofs.«176446_j53927609369062_2_alg».proof.Proof.LibBitWords
import proofs.«176446_j53927609369062_2_alg».proof.Proof.LibDotRow
import Idealize.ShloMosaic.Lib.StableHlo.Run
import Idealize.ShloMosaic.Lib.ValueLayout

set_option maxRecDepth 16384

noncomputable section

namespace SelfKL.KerHost

open Cert.KernelIdeal Cert.KernelIdeal.Gen
open Idealize.ShloMosaic Idealize.ShloMosaic.TcCoe Idealize.ShloMosaic.ValueIdx Idealize.SL.Sem SelfKL

variable (m : (ℓ : Loc nD τ sig) → Buf (Elt Ideal) ℓ) (c : Dev nD)

/-- The two inputs as launched. -/
abbrev logits : (⟨Cert.ReferenceIdeal.S4096x3, .f32⟩ : BufTy).Contents (Elt Ideal) := m ((c : Thread nD τ).loc main_arg0)
abbrev labels : (⟨Cert.ReferenceIdeal.S4096, .i32⟩ : BufTy).Contents (Elt Ideal) := m ((c : Thread nD τ).loc main_arg1)

/-- Read a buffer of the valuation at the region's entry: unfold the host operations before the region and evaluate
    them at that buffer, leaving the operations' functions applied to the operands' terms. -/
macro "read_entry" : tactic => `(tactic| (
  dsimp only [V, V0]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp))

/-- The tables the region finds are the reference's. -/
theorem V_S : (V m c main_v16 : Tab) = Cert.ReferenceIdeal.Read.val_main_v15 (F := Ideal) (logits m c) := by
  read_entry
  rfl
theorem V_LS : (V m c main_v17 : Tab) = Cert.ReferenceIdeal.Read.val_main_v16 (F := Ideal) (logits m c) := by
  read_entry
  rfl
theorem V_T : (V m c main_v5 : Tab) = Cert.ReferenceIdeal.Read.val_main_v4 (F := Ideal) (labels m c) := by
  read_entry
  rfl
theorem V_LT : (V m c main_v18 : Tab) = Cert.ReferenceIdeal.Read.val_main_v17 (F := Ideal) (labels m c) := by
  read_entry
  rfl

/-- The cross-entropy term is the reference's. -/
theorem V_loss0 : (V m c main_v23 : (⟨0, ![]⟩ : Shape).Idx → EReal)
    = Cert.ReferenceIdeal.Read.val_main_v26 (F := Ideal) (logits m c) (labels m c) := by
  read_entry
  rfl

/-! ## The kernel-only chain read at an index -/

/-- A column iota broadcast down the rows reads the column's number. -/
theorem iota_cols3 (k cc : Fin 3) :
    broadcastInDim S3x3 ![0, 1] bcast_S1x3_S3x3_0_1 (iotaInDim S1x3 32 1) (ix2 k cc) = BitVec.ofNat 32 cc.val := by
  rw [broadcastInDim_apply _ bcast_S1x3_S3x3_0_1 _ (ix2 k cc) (ix2 (0 : Fin 1) cc) (fun b => match b with
    | ⟨0, _⟩ => by show 0 = if (1 : Nat) = 1 then 0 else k.val; rw [if_pos rfl]
    | ⟨1, _⟩ => by show cc.val = if (3 : Nat) = 1 then 0 else cc.val; rw [if_neg (by decide)])]
  rfl
theorem iota_cols4096 (j : Fin 4096) (k : Fin 3) :
    broadcastInDim S4096x3 ![0, 1] bcast_S1x3_S4096x3_0_1 (iotaInDim S1x3 32 1) (ix2 j k) = BitVec.ofNat 32 k.val := by
  rw [broadcastInDim_apply _ bcast_S1x3_S4096x3_0_1 _ (ix2 j k) (ix2 (0 : Fin 1) k) (fun b => match b with
    | ⟨0, _⟩ => by show 0 = if (1 : Nat) = 1 then 0 else j.val; rw [if_pos rfl]
    | ⟨1, _⟩ => by show k.val = if (3 : Nat) = 1 then 0 else k.val; rw [if_neg (by decide)])]
  rfl
/-- A row iota broadcast along the columns reads the row's number. -/
theorem iota_rows3 (k cc : Fin 3) :
    broadcastInDim S3x3 ![0, 1] bcast_S3x1_S3x3_0_1 (broadcastInDim S3x1 ![0] bcast_S3_S3x1_0 (iotaInDim S3 32 0)) (ix2 k cc)
      = BitVec.ofNat 32 k.val := by
  rw [broadcastInDim_apply _ bcast_S3x1_S3x3_0_1 _ (ix2 k cc) (ix2 k (0 : Fin 1)) (fun b => match b with
      | ⟨0, _⟩ => by show k.val = if (3 : Nat) = 1 then 0 else k.val; rw [if_neg (by decide)]
      | ⟨1, _⟩ => by show 0 = if (1 : Nat) = 1 then 0 else cc.val; rw [if_pos rfl]),
    broadcastInDim_apply _ bcast_S3_S3x1_0 _ (ix2 k (0 : Fin 1)) (ix1 k) (fun b => match b with
      | ⟨0, _⟩ => by show k.val = if (3 : Nat) = 1 then 0 else k.val; rw [if_neg (by decide)])]
  rfl
/-- The labels broadcast along the columns read the row's label. -/
theorem labels_bcast (x1 : (⟨S4096, .i32⟩ : BufTy).Contents (Elt Ideal)) (j : Fin 4096) (k : Fin 3) :
    broadcastInDim S4096x3 ![0, 1] bcast_S4096x1_S4096x3_0_1 (broadcastInDim S4096x1 ![0] bcast_S4096_S4096x1_0 x1) (ix2 j k)
      = x1 (ix1 j) := by
  rw [broadcastInDim_apply _ bcast_S4096x1_S4096x3_0_1 _ (ix2 j k) (ix2 j (0 : Fin 1)) (fun b => match b with
      | ⟨0, _⟩ => by show j.val = if (4096 : Nat) = 1 then 0 else j.val; rw [if_neg (by decide)]
      | ⟨1, _⟩ => by show 0 = if (1 : Nat) = 1 then 0 else k.val; rw [if_pos rfl]),
    broadcastInDim_apply _ bcast_S4096_S4096x1_0 _ (ix2 j (0 : Fin 1)) (ix1 j) (fun b => match b with
      | ⟨0, _⟩ => by show j.val = if (4096 : Nat) = 1 then 0 else j.val; rw [if_neg (by decide)])]

/-- The compare bit of a word against a class number, as a float: the indicator of "the word's value is the class". -/
theorem ind_word (w : BitVec 32) (k : Nat) (hk : k < 3) :
    FloatOps.uitofp (F := Ideal) .f32 (IntOp.cmpi .eq w (BitVec.ofNat 32 k)) = if w.toNat = k then (1 : EReal) else 0 := by
  have hbe : (w == BitVec.ofNat 32 k) = decide (w.toNat = k) := by
    by_cases h : w.toNat = k
    · rw [decide_eq_true h]
      exact beq_iff_eq.2 (BitVec.eq_of_toNat_eq (by rw [BitVec.toNat_ofNat, h]; omega))
    · rw [decide_eq_false h]
      exact beq_false_of_ne fun e => h (by rw [e, BitVec.toNat_ofNat]; omega)
  show FloatOps.uitofp (F := Ideal) .f32 (BitVec.ofBool (w == BitVec.ofNat 32 k)) = _
  rw [hbe, BitWords.unsigned_ofBool]
  by_cases h : w.toNat = k
  · rw [decide_eq_true h, if_pos rfl, if_pos h]
  · rw [decide_eq_false h, if_neg Bool.false_ne_true, if_neg h]

/-- One entry of the one-hot table of the labels: the indicator of "row j's label is class k". -/
theorem onehot_apply (x1 : (⟨S4096, .i32⟩ : BufTy).Contents (Elt Ideal)) (j : Fin 4096) (k : Fin 3) :
    FloatOps.uitofp (F := Ideal) .f32 (IntOp.cmpi .eq
        (broadcastInDim S4096x3 ![0, 1] bcast_S4096x1_S4096x3_0_1 (broadcastInDim S4096x1 ![0] bcast_S4096_S4096x1_0 x1)
          (ix2 j k))
        (broadcastInDim S4096x3 ![0, 1] bcast_S1x3_S4096x3_0_1 (iotaInDim S1x3 32 1) (ix2 j k)))
      = if (x1 (ix1 j)).toNat = k.val then (1 : EReal) else 0 := by
  rw [labels_bcast, iota_cols4096, ind_word _ _ k.isLt]

/-- The class table: row k is the target row of class k. -/
theorem TT_apply (k cc : Fin 3) :
    (V m c main_v28 : (⟨2, ![3, 3]⟩ : Shape).Idx → EReal) (ix2 k cc)
      = if k = cc then (1 : EReal) else Ideal.ofBits .f32 0x38D1B717#32 := by
  read_entry
  -- the clip of the compare bit of the two iotas, times the weight 1
  show FloatOps.mulf (FloatOps.minimumf (FloatOps.ofBits .f32 0x3F800000#32)
      (FloatOps.maximumf (FloatOps.ofBits .f32 0x38D1B717#32)
        (FloatOps.uitofp .f32 (IntOp.cmpi .eq
          (broadcastInDim S3x3 ![0, 1] bcast_S3x1_S3x3_0_1 (broadcastInDim S3x1 ![0] bcast_S3_S3x1_0 (iotaInDim S3 32 0)) (ix2 k cc))
          (broadcastInDim S3x3 ![0, 1] bcast_S1x3_S3x3_0_1 (iotaInDim S1x3 32 1) (ix2 k cc))))))
      (FloatOps.ofBits .f32 0x3F800000#32) = _
  obtain ⟨ε, h0, h1, hε⟩ := SoftmaxReal.ofBits_eps
  have h1' : (ε : EReal) ≤ 1 := by exact_mod_cast h1.le
  have h0' : (0 : EReal) ≤ (ε : EReal) := by exact_mod_cast h0.le
  have hone : Ideal.ofBits .f32 0x3F800000#32 = (1 : EReal) := by rw [SoftmaxReal.ofBits_one, EReal.coe_one]
  have hw : (BitVec.ofNat 32 k.val).toNat = k.val := by rw [BitVec.toNat_ofNat]; omega
  rw [iota_rows3, iota_cols3, ind_word _ _ cc.isLt, hw, Ideal.mulf_def, Ideal.minimumf_def, Ideal.maximumf_def,
    Ideal.ofBits_def, Ideal.ofBits_def, hone, hε]
  by_cases hkc : k = cc
  · rw [if_pos hkc, if_pos (congrArg Fin.val hkc), max_eq_right h1', min_self, mul_one]
  · rw [if_neg hkc, if_neg (fun h => hkc (Fin.ext h)), max_eq_left h0', min_eq_right h1', mul_one]

/-- The class counts: the number of rows whose label is k, as a sum of indicators. -/
theorem cnt_apply (k : Fin 3) :
    (V m c main_v30 : (⟨1, ![3]⟩ : Shape).Idx → EReal) (ix1 k)
      = ∑ j : Fin 4096, (if (labels m c (ix1 j)).toNat = k.val then (1 : EReal) else 0) := by
  read_entry
  have hR : S4096x3.Reduces [0] S3 := by decide
  simp only [Host.reduceAdd, Ideal.hostReduceAdd_def]
  rw [Ideal.hostReduceAdd_single reducesTo_S4096x3_S3_d0 hR]
  show Ideal.ofBits .f32 0x00000000#32 + _ = _
  rw [Ideal.ofBits_zero_f32, zero_add]
  refine Finset.sum_congr rfl fun j _ => ?_
  have hl : hR.lift (ix1 k) j = ix2 (j : Fin 4096) k := by
    funext d; apply Fin.ext
    fin_cases d <;> rfl
  rw [hl]
  exact onehot_apply (labels m c) j k

/-! ## The second loss -/

theorem dot_lhs0 (j : S4096x3.Idx) (q : dot_S4096x3_S3x3_S4096x3_1_0_0_1_n_n.contr.Idx) :
    (dot_S4096x3_S3x3_S4096x3_1_0_0_1_n_n.lhsIdx j q 0).val = (j 0).val := by
  unfold DotDims.lhsIdx
  rw [dif_neg (show ¬(0 : Fin S4096x3.rank) ∈ dot_S4096x3_S3x3_S4096x3_1_0_0_1_n_n.lhsBatch by decide),
    dif_pos (show (0 : Fin S4096x3.rank) ∈ dot_S4096x3_S3x3_S4096x3_1_0_0_1_n_n.lhsNonContracting by decide)]
  rfl
theorem dot_rhs1 (j : S4096x3.Idx) (q : dot_S4096x3_S3x3_S4096x3_1_0_0_1_n_n.contr.Idx) :
    (dot_S4096x3_S3x3_S4096x3_1_0_0_1_n_n.rhsIdx j q 1).val = (j 1).val := by
  unfold DotDims.rhsIdx
  rw [dif_neg (show ¬(1 : Fin S3x3.rank) ∈ dot_S4096x3_S3x3_S4096x3_1_0_0_1_n_n.rhsBatch by decide),
    dif_pos (show (1 : Fin S3x3.rank) ∈ dot_S4096x3_S3x3_S4096x3_1_0_0_1_n_n.rhsNonContracting by decide)]
  rfl

/-- The product of a [4096, 3] table with a transposed [3, 3] table at (a, k): row a contracted with row k. -/
theorem dot_apply (L : FVec Ideal S4096x3 .f32) (TT : FVec Ideal S3x3 .f32) (a : Fin 4096) (k : Fin 3) :
    Host.dotGeneral (F := Ideal) dot_S4096x3_S3x3_S4096x3_1_0_0_1_n_n none L
        (transpose S3x3 [1, 0] TT transposes_S3x3_S3x3_1_0) (ix2 a k)
      = ∑ cc : Fin 3, L (ix2 a cc) * TT (ix2 k cc) := by
  simp only [Host.dotGeneral]
  rw [Ideal.dotGeneral_apply]
  refine (DotRow.sum_contr dot_S4096x3_S3x3_S4096x3_1_0_0_1_n_n rfl rfl rfl rfl dot_lhs0 dot_rhs1 L
    (transpose S3x3 [1, 0] TT transposes_S3x3_S3x3_1_0) a k).trans ?_
  refine Finset.sum_congr rfl fun cc _ => ?_
  rw [transpose_ix2_apply TT transposes_S3x3_S3x3_1_0 cc k]

/-- The last operations before the region, over any four tables: eps plus the sum over rows and classes of the absolute
    product times the class count, divided by 4096². -/
theorem loss2_term (LS LT : FVec Ideal S4096x3 .f32) (TT : FVec Ideal S3x3 .f32) (cnt : FVec Ideal S3 .f32) (i0 : S_.Idx) :
    (Host.divf (F := Ideal)
      (addf (constant S_ .f32 0x38D1B717#32)
        (Host.reduceAdd
          (mulf (Host.absf (Host.dotGeneral dot_S4096x3_S3x3_S4096x3_1_0_0_1_n_n none (subf LT LS)
                  (transpose S3x3 [1, 0] TT transposes_S3x3_S3x3_1_0)))
            (broadcastInDim S4096x3 ![0, 1] bcast_S1x3_S4096x3_0_1 (broadcastInDim S1x3 ![1] bcast_S3_S1x3_1 cnt)))
          (constant S_ .f32 0x00000000#32) reducesTo_S4096x3_S_d0_1 h_S_))
      (constant S_ .f32 0x4B800000#32)) i0
    = lossOf (kerSum2 LS LT TT cnt) := by
  have hY : ∀ (a : Fin 4096) (k : Fin 3),
      (mulf (Host.absf (Host.dotGeneral (F := Ideal) dot_S4096x3_S3x3_S4096x3_1_0_0_1_n_n none (subf LT LS)
              (transpose S3x3 [1, 0] TT transposes_S3x3_S3x3_1_0)))
          (broadcastInDim S4096x3 ![0, 1] bcast_S1x3_S4096x3_0_1 (broadcastInDim S1x3 ![1] bcast_S3_S1x3_1 cnt))) (ix2 a k)
        = absE (∑ cc : Fin 3, (LT (ix2 a cc) - LS (ix2 a cc)) * TT (ix2 k cc)) * cnt (ix1 k) := by
    intro a k
    have hb : broadcastInDim S4096x3 ![0, 1] bcast_S1x3_S4096x3_0_1 (broadcastInDim S1x3 ![1] bcast_S3_S1x3_1 cnt) (ix2 a k)
        = cnt (ix1 k) := by
      rw [broadcastInDim_apply _ bcast_S1x3_S4096x3_0_1 _ (ix2 a k) (ix2 (0 : Fin 1) k) (fun b => match b with
          | ⟨0, _⟩ => by show 0 = if (1 : Nat) = 1 then 0 else a.val; rw [if_pos rfl]
          | ⟨1, _⟩ => by show k.val = if (3 : Nat) = 1 then 0 else k.val; rw [if_neg (by decide)]),
        broadcastInDim_apply _ bcast_S3_S1x3_1 _ (ix2 (0 : Fin 1) k) (ix1 k) (fun b => match b with
          | ⟨0, _⟩ => by show k.val = if (3 : Nat) = 1 then 0 else k.val; rw [if_neg (by decide)])]
    show FloatOps.mulf (FloatOps.hostAbsf (Host.dotGeneral (F := Ideal) dot_S4096x3_S3x3_S4096x3_1_0_0_1_n_n none (subf LT LS)
          (transpose S3x3 [1, 0] TT transposes_S3x3_S3x3_1_0) (ix2 a k)))
        (broadcastInDim S4096x3 ![0, 1] bcast_S1x3_S4096x3_0_1 (broadcastInDim S1x3 ![1] bcast_S3_S1x3_1 cnt) (ix2 a k)) = _
    rw [hb, dot_apply]
    rfl
  have hsum : Host.reduceAdd (F := Ideal)
        (mulf (Host.absf (Host.dotGeneral dot_S4096x3_S3x3_S4096x3_1_0_0_1_n_n none (subf LT LS)
                (transpose S3x3 [1, 0] TT transposes_S3x3_S3x3_1_0)))
          (broadcastInDim S4096x3 ![0, 1] bcast_S1x3_S4096x3_0_1 (broadcastInDim S1x3 ![1] bcast_S3_S1x3_1 cnt)))
        (constant S_ .f32 0x00000000#32) reducesTo_S4096x3_S_d0_1 h_S_ i0
      = kerSum2 LS LT TT cnt := by
    simp only [Host.reduceAdd, Ideal.hostReduceAdd_def]
    rw [Ideal.hostReduceAdd_total reducesTo_S4096x3_S_d0_1 (fun b => b.elim0)]
    show Ideal.ofBits .f32 0x00000000#32 + _ = _
    rw [Ideal.ofBits_zero_f32, zero_add, sum_idx2]
    unfold kerSum2
    exact Finset.sum_congr rfl fun a _ => Finset.sum_congr rfl fun k _ => hY a k
  show Ideal.div (Ideal.ofBits .f32 0x38D1B717#32 + Host.reduceAdd (F := Ideal)
        (mulf (Host.absf (Host.dotGeneral dot_S4096x3_S3x3_S4096x3_1_0_0_1_n_n none (subf LT LS)
                (transpose S3x3 [1, 0] TT transposes_S3x3_S3x3_1_0)))
          (broadcastInDim S4096x3 ![0, 1] bcast_S1x3_S4096x3_0_1 (broadcastInDim S1x3 ![1] bcast_S3_S1x3_1 cnt)))
        (constant S_ .f32 0x00000000#32) reducesTo_S4096x3_S_d0_1 h_S_ i0) (Ideal.ofBits .f32 0x4B800000#32) = _
  rw [hsum]
  rfl

/-- The second loss as the kernel's host code computes it. -/
theorem V_loss2 : (V m c main_v40 : (⟨0, ![]⟩ : Shape).Idx → EReal)
    = fun _ => lossOf (kerSum2 (V m c main_v17) (V m c main_v18) (V m c main_v28) (V m c main_v30)) := by
  funext i0
  read_entry
  exact loss2_term _ _ _ _ i0

end SelfKL.KerHost

end
-- ==== Proof.Inputs.lean ====
/-
  What the precondition says of the two inputs, and what follows for the four tables the loss is built from.

  The precondition is the conjunction of two tests: every logit is finite, and every label lies in {0, 1, 2}.
  From the first, each softmax entry is a positive real and its logarithm a real; from the second, a row of the
  clipped one-hot target is 1 at its label and eps elsewhere, so it and its logarithm are real as well.
-/
import proofs.«176446_j53927609369062_2_alg».proof.Proof.Gen.ReferenceIdeal.Read
import proofs.«176446_j53927609369062_2_alg».proof.Proof.Gen.Pre_finite_inputs
import proofs.«176446_j53927609369062_2_alg».proof.Proof.LibSoftmaxReal
import Idealize.ShloMosaic.Lib.ReduceAll

noncomputable section

namespace SelfKL.Inputs

open Cert.ReferenceIdeal Cert.ReferenceIdeal.Gen Cert.ReferenceIdeal.Read
open Idealize.ShloMosaic Idealize.ShloMosaic.ValueIdx

/-- The logits and the labels as the reference's @main takes them. -/
abbrev Logits := (⟨Cert.ReferenceIdeal.S4096x3, .f32⟩ : BufTy).Contents (Elt Ideal)
abbrev Labels := (⟨Cert.ReferenceIdeal.S4096, .i32⟩ : BufTy).Contents (Elt Ideal)

/-- Every logit is a real number. -/
def Finite (x0 : Logits) : Prop := ∀ i, ∃ r : ℝ, x0 i = (r : EReal)

/-- Every label is 0, 1 or 2. -/
def InRange (x1 : Labels) : Prop := ∀ j, (x1 j).toNat < 3

/-- The precondition, read at the Ideal instance, gives both facts.  (The precondition function is printed with its own
    copies of the shape names; they are the same literals.) -/
theorem of_pre [Cert.Pre_finite_inputs.Facts] (x0 : Logits) (x1 : Labels)
    (h : Cert.Pre_finite_inputs.fn (F := Ideal) x0 x1 = fun _ => 1#1) :
    Finite x0 ∧ InRange x1 := by
  haveI : Subsingleton Cert.Pre_finite_inputs.S_.Idx := ⟨fun a b => funext fun d => d.elim0⟩
  have e := congrFun h ValueIdx.ix0
  dsimp only [Cert.Pre_finite_inputs.fn] at e
  obtain ⟨e1, e2⟩ := IntOp.andi_eq_one.1 e
  constructor
  · -- every |x| is below +∞, so x is neither +∞ nor −∞
    intro i
    have hi := Host.reduce_andi_all _ _ _ _ _ e1 i
    have hi' : Ideal.cmp .olt (max (x0 i) (-(x0 i))) (Ideal.ofBits .f32 0x7F800000#32) = 1#1 := hi
    have hb1 : ∀ b : Bool, BitVec.ofBool b = 1#1 ↔ b = true := by decide
    have hlt : max (x0 i) (-(x0 i)) < (⊤ : EReal) := by
      simpa [Ideal.cmp, Ideal.ofBits, Ideal.ieee, hb1] using hi'
    rw [max_lt_iff] at hlt
    have hbot : x0 i ≠ ⊥ := by
      intro hb
      rw [hb] at hlt
      exact absurd hlt.2 (by simp)
    exact ⟨(x0 i).toReal, (EReal.coe_toReal hlt.1.ne hbot).symm⟩
  · -- 0 ≤ label < 3 read signed; a nonnegative signed word is its unsigned value
    intro j
    have hj := Host.reduce_andi_all _ _ _ _ _ e2 j
    obtain ⟨h0, h3⟩ := IntOp.andi_eq_one.1 hj
    have h0' : (0#32 : BitVec 32).toInt ≤ (x1 j).toInt := IntOp.cmpi_sge.1 h0
    have h3' : (x1 j).toInt < (3#32 : BitVec 32).toInt := IntOp.cmpi_slt.1 h3
    rw [show (0#32 : BitVec 32).toInt = 0 from by decide] at h0'
    rw [show (3#32 : BitVec 32).toInt = 3 from by decide] at h3'
    have hc := BitVec.toInt_eq_toNat_cond (x1 j)
    have hlt := (x1 j).isLt
    show (x1 j).toNat < 3
    split at hc <;> omega

/-- The larger of −∞ and a maximum, taken from −∞, over a nonempty finite family of reals is a real: the maximum is
    below +∞ because every member is, and above −∞ because one member is. -/
theorem fold_max_real {ι : Type} (s : Finset ι) (f : ι → EReal) (hf : ∀ k, ∃ r : ℝ, f k = (r : EReal)) (k0 : ι)
    (hk0 : k0 ∈ s) : ∃ μ : ℝ, max (⊥ : EReal) (s.fold max ⊥ f) = (μ : EReal) := by
  have h1 : s.fold max ⊥ f < (⊤ : EReal) := by
    rw [Finset.fold_max_lt]
    refine ⟨bot_lt_top, fun k _ => ?_⟩
    obtain ⟨r, hr⟩ := hf k
    rw [hr]; exact EReal.coe_lt_top r
  have h2 : (⊥ : EReal) < s.fold max ⊥ f := by
    rw [Finset.lt_fold_max]
    refine Or.inr ⟨k0, hk0, ?_⟩
    obtain ⟨r, hr⟩ := hf k0
    rw [hr]; exact EReal.bot_lt_coe r
  exact ⟨_, by rw [max_eq_right bot_le]; exact (EReal.coe_toReal h1.ne h2.ne').symm⟩

/-- The row maximum (the reference's %7, the larger of −∞ and the reduce of %5) is a real. -/
theorem rowmax_real (x0 : Logits) (hx : Finite x0) (j : Cert.ReferenceIdeal.S4096.Idx) :
    ∃ μ : ℝ, val_main_v7 (F := Ideal) x0 j = (μ : EReal) := by
  have hR : Cert.ReferenceIdeal.S4096x3.Reduces [1] Cert.ReferenceIdeal.S4096 := by decide
  have h5 : val_main_v5 (F := Ideal) x0 j
      = (Finset.univ : Finset (Fin (Cert.ReferenceIdeal.S4096x3.size 1))).fold max (⊥ : EReal) (x0 ∘ hR.lift j) := by
    unfold val_main_v5
    have hf := Host.reduce_eq_fold_single (FloatOps.maximumf (F := Ideal) (φ := .f32))
      (x0 : Cert.ReferenceIdeal.S4096x3.Idx → EReal) (val_main_cst_2 (F := Ideal)) reducesTo_S4096x3_S4096_d1 hR h_S_ j
    rw [hf, val_main_cst_2_apply, Ideal.ofBits_def, SoftmaxReal.ofBits_neg_inf]
    rfl
  rw [val_main_v7_apply, val_main_v6_apply, val_main_cst_3_apply, Ideal.maximumf_def, Ideal.ofBits_def,
    SoftmaxReal.ofBits_neg_inf, h5]
  exact fold_max_real Finset.univ (x0 ∘ hR.lift j) (fun k => hx _) ⟨0, by decide⟩ (Finset.mem_univ _)

/-- The exponential table (the reference's %11): positive reals. -/
theorem E_pos (x0 : Logits) (hx : Finite x0) (i : Cert.ReferenceIdeal.S4096x3.Idx) :
    ∃ e : ℝ, 0 < e ∧ val_main_v11 (F := Ideal) x0 i = (e : EReal) := by
  obtain ⟨r, hr⟩ := hx i
  obtain ⟨μ, hμ⟩ := rowmax_real x0 hx (idx_main_v8 (idx_main_v9 i))
  refine ⟨Real.exp (r - μ), Real.exp_pos _, ?_⟩
  rw [val_main_v11_apply, val_main_v10_apply, val_main_v9_apply, val_main_v8_apply, hμ, hr,
    Ideal.hostUnary_exp_def, Ideal.subf_def]
  exact SoftmaxReal.exp_sub_coe r μ

/-- The softmax table (the reference's %15): positive reals. -/
theorem S_pos (x0 : Logits) (hx : Finite x0) : ∀ i, ∃ s : ℝ, 0 < s ∧ val_main_v15 (F := Ideal) x0 i = (s : EReal) := by
  intro i
  -- the three exponentials of the row of i, and i as the entry of that row in its own column
  choose e he using fun k : Fin 3 => E_pos x0 hx (idx_main_v12 (idx_main_v13 (idx_main_v14 i)) k)
  have hii : idx_main_v12 (idx_main_v13 (idx_main_v14 i)) (i 1) = i := by
    funext a
    match a with
    | ⟨0, _⟩ => exact Fin.ext rfl
    | ⟨1, _⟩ => exact Fin.ext rfl
  have hnum : val_main_v11 (F := Ideal) x0 i = ((e (i 1) : ℝ) : EReal) := by
    have h := (he (i 1)).2
    rwa [hii] at h
  have hsum : ∑ k : Fin 3, val_main_v11 (F := Ideal) x0 (idx_main_v12 (idx_main_v13 (idx_main_v14 i)) k)
      = ∑ k : Fin 3, ((e k : ℝ) : EReal) := Finset.sum_congr rfl fun k _ => (he k).2
  obtain ⟨s, hs, hdiv⟩ := SoftmaxReal.div_sum_pos e (fun k => (he k).1) (i 1)
  refine ⟨s, hs, ?_⟩
  rw [val_main_v15_apply, val_main_v14_apply, val_main_v13_apply, val_main_v12_apply, val_main_cst_4_apply,
    Ideal.hostDivf_def, Ideal.ofBits_def, Ideal.ofBits_zero_f32, hnum, hsum]
  exact hdiv

/-- Its logarithm (the reference's %16): reals. -/
theorem LS_real (x0 : Logits) (hx : Finite x0) : ∀ i, ∃ r : ℝ, val_main_v16 (F := Ideal) x0 i = (r : EReal) := by
  intro i
  obtain ⟨s, hs, h15⟩ := S_pos x0 hx i
  refine ⟨Real.log s, ?_⟩
  rw [val_main_v16_apply, h15, Ideal.hostUnary_log_def]
  exact SoftmaxReal.log_coe_pos s hs

/-- The chain of the reference's %4 at one entry, for any real eps in (0, 1) that the eps word denotes: 1 at the row's
    label, eps elsewhere (for every label word: a column index is below 3, so it equals the word exactly when it equals
    the word's unsigned value). -/
theorem T_aux (x1 : Labels) (ε : ℝ) (h0 : 0 < ε) (h1 : ε < 1) (hε : Ideal.ofBits .f32 0x38D1B717#32 = (ε : EReal))
    (a : Fin 4096) (c : Fin 3) :
    val_main_v4 (F := Ideal) x1 (ix2 a c) = ((if (x1 (ix1 a)).toNat = c.val then (1 : ℝ) else ε : ℝ) : EReal) := by
  -- the row's label word, read through the two broadcasts of the one-hot call
  have hidx : idx_main_call0_v0 (idx_main_call0_v2 (ix2 a c)) = ix1 a := by
    funext d
    match d with
    | ⟨0, _⟩ => rfl
  have hu : ∀ w : BitVec 1, FloatOps.uitofp (F := Ideal) .f32 w = (((w.toNat : ℕ) : ℝ) : EReal) := fun _ => rfl
  -- the chain %4 ← %1 (clip: min 1 (max eps ·)) ← %0 (one-hot: the compare bit as a float), times the weight 1
  rw [val_main_v4_apply, val_main_v3_apply, val_main_v2_apply, val_main_cst_apply, val_main_v1_apply,
    val_main_call1_v4_apply, val_main_call1_v3_apply, val_main_cst_1_apply, val_main_call1_v2_apply,
    val_main_call1_v1_apply, val_main_call1_v0_apply, val_main_cst_0_apply, val_main_v0_apply,
    val_main_call0_v4_apply, val_main_call0_v2_apply, val_main_call0_v0_apply, val_main_call0_v3_apply,
    val_main_call0_v1_apply, hidx, hu, Ideal.mulf_def, Ideal.minimumf_def, Ideal.maximumf_def, Ideal.ofBits_def,
    Ideal.ofBits_def, SoftmaxReal.ofBits_one, hε]
  show min ((1 : ℝ) : EReal) (max (ε : EReal)
      ((((IntOp.cmpi .eq (x1 (ix1 a)) (BitVec.ofNat 32 c.val)).toNat : ℕ) : ℝ) : EReal)) * ((1 : ℝ) : EReal) = _
  have hc3 : c.val < 3 := c.isLt
  by_cases hwc : (x1 (ix1 a)).toNat = c.val
  · -- label = column: the compare bit is 1
    have hw : x1 (ix1 a) = BitVec.ofNat 32 c.val := by
      apply BitVec.eq_of_toNat_eq
      rw [BitVec.toNat_ofNat, hwc]; omega
    have hb : IntOp.cmpi .eq (x1 (ix1 a)) (BitVec.ofNat 32 c.val) = 1#1 := IntOp.cmpi_eq.2 hw
    rw [hb, if_pos hwc, show (1#1 : BitVec 1).toNat = 1 from rfl, Nat.cast_one]
    exact SoftmaxReal.clip_ind ε h0 h1 true
  · -- label ≠ column: the compare bit is 0
    have hb : IntOp.cmpi .eq (x1 (ix1 a)) (BitVec.ofNat 32 c.val) = 0#1 :=
      eq_zero_of_ne_one (fun h => hwc (by
        have hw := IntOp.cmpi_eq.1 h
        rw [hw, BitVec.toNat_ofNat]; omega))
    rw [hb, if_neg hwc, show (0#1 : BitVec 1).toNat = 0 from rfl, Nat.cast_zero]
    exact SoftmaxReal.clip_ind ε h0 h1 false

/-- The clipped, weighted one-hot target (the reference's %4): 1 at the row's label, eps elsewhere. -/
theorem T_val (x1 : Labels) (hl : InRange x1) :
    ∃ ε : ℝ, 0 < ε ∧ ε < 1 ∧ ∀ (a : Fin 4096) (c : Fin 3),
      val_main_v4 (F := Ideal) x1 (ix2 a c) = ((if (x1 (ix1 a)).toNat = c.val then (1 : ℝ) else ε : ℝ) : EReal) := by
  obtain ⟨ε, h0, h1, hε⟩ := SoftmaxReal.ofBits_eps
  exact ⟨ε, h0, h1, fun a c => T_aux x1 ε h0 h1 hε a c⟩

/-- The same entry with the eps word left as a literal, for any label word. -/
theorem T_lit (x1 : Labels) (a : Fin 4096) (c : Fin 3) :
    val_main_v4 (F := Ideal) x1 (ix2 a c)
      = if (x1 (ix1 a)).toNat = c.val then (1 : EReal) else Ideal.ofBits .f32 0x38D1B717#32 := by
  obtain ⟨ε, h0, h1, hε⟩ := SoftmaxReal.ofBits_eps
  rw [T_aux x1 ε h0 h1 hε a c, hε]
  by_cases hwc : (x1 (ix1 a)).toNat = c.val
  · rw [if_pos hwc, if_pos hwc]; exact EReal.coe_one
  · rw [if_neg hwc, if_neg hwc]

/-- Its logarithm (the reference's %17): reals. -/
theorem LT_real (x1 : Labels) (hl : InRange x1) : ∀ i, ∃ r : ℝ, val_main_v17 (F := Ideal) x1 i = (r : EReal) := by
  intro i
  obtain ⟨a, c, rfl⟩ : ∃ (a : Fin 4096) (c : Fin 3), i = ix2 a c := ⟨i 0, i 1, eq_ix2 i⟩
  obtain ⟨ε, h0, h1, hT⟩ := T_val x1 hl
  -- the entry is 1 or eps, a positive real either way
  have hpos : 0 < (if (x1 (ix1 a)).toNat = c.val then (1 : ℝ) else ε) := by
    split
    · exact one_pos
    · exact h0
  refine ⟨Real.log (if (x1 (ix1 a)).toNat = c.val then (1 : ℝ) else ε), ?_⟩
  rw [val_main_v17_apply, hT a c, Ideal.hostUnary_log_def]
  exact SoftmaxReal.log_coe_pos _ hpos

end SelfKL.Inputs

end
-- ==== Proof.RefLoss.lean ====
/-
  The reference program's five results, read operation by operation, are the specification's formulas of its own
  four tables: softmax S (%15), log S (%16), clipped target T (%4), log T (%17).

  Row sums  Σ_c X[a,c]·Y[a,c]  are the contraction `dot X Y a a`; a product with a transposed table,
  (X · Yᵀ)[a,b] = Σ_c X[a,c]·Y[b,c], is `dot X Y a b`; a sum over both axes of a 4096 × 4096 array is `total`.
  Nothing here needs finiteness: only the zero initial value of each sum is removed (0 + x = x).
-/
import proofs.«176446_j53927609369062_2_alg».proof.Proof.Gen.ReferenceIdeal.Read
import proofs.«176446_j53927609369062_2_alg».proof.Proof.Spec

noncomputable section

namespace SelfKL.Ref

open Cert.ReferenceIdeal Cert.ReferenceIdeal.Gen Cert.ReferenceIdeal.Read
open Idealize.ShloMosaic Idealize.ShloMosaic.ValueIdx SelfKL

abbrev Logits := (⟨Cert.ReferenceIdeal.S4096x3, .f32⟩ : BufTy).Contents (Elt Ideal)
abbrev Labels := (⟨Cert.ReferenceIdeal.S4096, .i32⟩ : BufTy).Contents (Elt Ideal)

/-- The four tables, as the reference computes them. -/
abbrev tS (x0 : Logits) : Tab := val_main_v15 (F := Ideal) x0
abbrev tLS (x0 : Logits) : Tab := val_main_v16 (F := Ideal) x0
abbrev tT (x1 : Labels) : Tab := val_main_v4 (F := Ideal) x1
abbrev tLT (x1 : Labels) : Tab := val_main_v17 (F := Ideal) x1

/-! ## Reading aids: indices from coordinates, and the zero initial value of a sum -/

/-- Two rank-2 indices with the same two coordinates are equal. -/
local macro "idx2" : tactic =>
  `(tactic| exact funext fun d => Fin.ext (by match d with | ⟨0, _⟩ => rfl | ⟨1, _⟩ => rfl))

/-- Two rank-1 indices with the same coordinate are equal. -/
local macro "idx1" : tactic =>
  `(tactic| exact funext fun d => Fin.ext (by match d with | ⟨0, _⟩ => rfl))

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

variable (x0 : Logits) (x1 : Labels)

/-! ## Row sums: Σ_c X[a,c]·Y[a,c] = dot X Y a a -/

/-- %19: the row sums of S ⊙ log S. -/
theorem v19_at (a : Fin 4096) : val_main_v19 (F := Ideal) x0 (ix1 a) = dot (tS x0) (tLS x0) a a := by
  have e : ∀ k : Fin 3, idx_main_v19 (ix1 a) k = ix2 a k := fun k => by idx2
  rw [val_main_v19_apply, val_main_cst_5_apply, Ideal.ofBits_def, Ideal.ofBits_zero_f32, zero_add]
  unfold dot
  exact Finset.sum_congr rfl fun k _ => by rw [e k, val_main_v18_apply, Ideal.mulf_def]

/-- %21: the row sums of T ⊙ log T. -/
theorem v21_at (a : Fin 4096) : val_main_v21 (F := Ideal) x1 (ix1 a) = dot (tT x1) (tLT x1) a a := by
  have e : ∀ k : Fin 3, idx_main_v21 (ix1 a) k = ix2 a k := fun k => by idx2
  rw [val_main_v21_apply, val_main_cst_6_apply, Ideal.ofBits_def, Ideal.ofBits_zero_f32, zero_add]
  unfold dot
  exact Finset.sum_congr rfl fun k _ => by rw [e k, val_main_v20_apply, Ideal.mulf_def]

/-- %23: the row sums of T ⊙ log S. -/
theorem v23_at (a : Fin 4096) : val_main_v23 (F := Ideal) x0 x1 (ix1 a) = dot (tT x1) (tLS x0) a a := by
  have e : ∀ k : Fin 3, idx_main_v23 (ix1 a) k = ix2 a k := fun k => by idx2
  rw [val_main_v23_apply, val_main_cst_7_apply, Ideal.ofBits_def, Ideal.ofBits_zero_f32, zero_add]
  unfold dot
  exact Finset.sum_congr rfl fun k _ => by rw [e k, val_main_v22_apply, Ideal.mulf_def]

/-! ## Products with a transposed table: (X · Yᵀ)[a,b] = dot X Y a b -/

/-- %29 = S · (log S)ᵀ. -/
theorem v29_at (a b : Fin 4096) : val_main_v29 (F := Ideal) x0 (ix2 a b) = dot (tS x0) (tLS x0) a b := by
  have el : ∀ k : Fin 3, lidx_main_v29 (ix2 a b) k = ix2 a k := fun k => by idx2
  have er : ∀ k : Fin 3, idx_main_v28 (ridx_main_v29 (ix2 a b) k) = ix2 b k := fun k => by idx2
  rw [val_main_v29_apply]
  unfold dot
  exact Finset.sum_congr rfl fun k _ => by rw [val_main_v28_apply, el k, er k]

/-- %34 = T · (log T)ᵀ. -/
theorem v34_at (a b : Fin 4096) : val_main_v34 (F := Ideal) x1 (ix2 a b) = dot (tT x1) (tLT x1) a b := by
  have el : ∀ k : Fin 3, lidx_main_v34 (ix2 a b) k = ix2 a k := fun k => by idx2
  have er : ∀ k : Fin 3, idx_main_v33 (ridx_main_v34 (ix2 a b) k) = ix2 b k := fun k => by idx2
  rw [val_main_v34_apply]
  unfold dot
  exact Finset.sum_congr rfl fun k _ => by rw [val_main_v33_apply, el k, er k]

/-- %44 = (log S) · Tᵀ. -/
theorem v44_at (a b : Fin 4096) : val_main_v44 (F := Ideal) x0 x1 (ix2 a b) = dot (tLS x0) (tT x1) a b := by
  have el : ∀ k : Fin 3, lidx_main_v44 (ix2 a b) k = ix2 a k := fun k => by idx2
  have er : ∀ k : Fin 3, idx_main_v43 (ridx_main_v44 (ix2 a b) k) = ix2 b k := fun k => by idx2
  rw [val_main_v44_apply]
  unfold dot
  exact Finset.sum_congr rfl fun k _ => by rw [val_main_v43_apply, el k, er k]

/-- %49 = (log T) · Tᵀ. -/
theorem v49_at (a b : Fin 4096) : val_main_v49 (F := Ideal) x1 (ix2 a b) = dot (tLT x1) (tT x1) a b := by
  have el : ∀ k : Fin 3, lidx_main_v49 (ix2 a b) k = ix2 a k := fun k => by idx2
  have er : ∀ k : Fin 3, idx_main_v48 (ridx_main_v49 (ix2 a b) k) = ix2 b k := fun k => by idx2
  rw [val_main_v49_apply]
  unfold dot
  exact Finset.sum_congr rfl fun k _ => by rw [val_main_v48_apply, el k, er k]

/-- %59 = T · (log S)ᵀ. -/
theorem v59_at (a b : Fin 4096) : val_main_v59 (F := Ideal) x0 x1 (ix2 a b) = dot (tT x1) (tLS x0) a b := by
  have el : ∀ k : Fin 3, lidx_main_v59 (ix2 a b) k = ix2 a k := fun k => by idx2
  have er : ∀ k : Fin 3, idx_main_v58 (ridx_main_v59 (ix2 a b) k) = ix2 b k := fun k => by idx2
  rw [val_main_v59_apply]
  unfold dot
  exact Finset.sum_congr rfl fun k _ => by rw [val_main_v58_apply, el k, er k]

/-! ## Row constants spread over the square: along the rows (entry [a,b] holds row a's) or the columns (row b's) -/

/-- %30[a,b] = %19[a]. -/
theorem v30_at (a b : Fin 4096) : val_main_v30 (F := Ideal) x0 (ix2 a b) = dot (tS x0) (tLS x0) a a := by
  have e : idx_main_v27 (idx_main_v30 (ix2 a b)) = ix1 a := by idx1
  rw [val_main_v30_apply, val_main_v27_apply, e, v19_at]

/-- %35[a,b] = %21[a]. -/
theorem v35_at (a b : Fin 4096) : val_main_v35 (F := Ideal) x1 (ix2 a b) = dot (tT x1) (tLT x1) a a := by
  have e : idx_main_v32 (idx_main_v35 (ix2 a b)) = ix1 a := by idx1
  rw [val_main_v35_apply, val_main_v32_apply, e, v21_at]

/-- %45[a,b] = %21[b]. -/
theorem v45_at (a b : Fin 4096) : val_main_v45 (F := Ideal) x1 (ix2 a b) = dot (tT x1) (tLT x1) b b := by
  have e : idx_main_v42 (idx_main_v45 (ix2 a b)) = ix1 b := by idx1
  rw [val_main_v45_apply, val_main_v42_apply, e, v21_at]

/-- %50[a,b] = %21[b]. -/
theorem v50_at (a b : Fin 4096) : val_main_v50 (F := Ideal) x1 (ix2 a b) = dot (tT x1) (tLT x1) b b := by
  have e : idx_main_v47 (idx_main_v50 (ix2 a b)) = ix1 b := by idx1
  rw [val_main_v50_apply, val_main_v47_apply, e, v21_at]

/-- %60[a,b] = %21[a]. -/
theorem v60_at (a b : Fin 4096) : val_main_v60 (F := Ideal) x1 (ix2 a b) = dot (tT x1) (tLT x1) a a := by
  have e : idx_main_v57 (idx_main_v60 (ix2 a b)) = ix1 a := by idx1
  rw [val_main_v60_apply, val_main_v57_apply, e, v21_at]

/-! ## The pairwise entries -/

/-- %31[a,b] = S_a·LS_a − S_a·LS_b, shared by the first and the third loss. -/
theorem v31_at (a b : Fin 4096) :
    val_main_v31 (F := Ideal) x0 (ix2 a b) = dot (tS x0) (tLS x0) a a - dot (tS x0) (tLS x0) a b := by
  rw [val_main_v31_apply, v30_at, v29_at, Ideal.subf_def]

/-- %38: the first loss's entry. -/
theorem v38_at (a b : Fin 4096) : val_main_v38 (F := Ideal) x0 x1 (ix2 a b)
    = refTerm (tS x0) (tLS x0) (tT x1) (tLT x1) (tLT x1) a b := by
  rw [val_main_v38_apply, val_main_v37_apply, v31_at, val_main_v36_apply, v35_at, v34_at]
  simp only [Ideal.hostAbsf_def, Ideal.absf_def, Ideal.subf_def]
  rfl

/-- %53: the second loss's entry. -/
theorem v53_at (a b : Fin 4096) : val_main_v53 (F := Ideal) x0 x1 (ix2 a b)
    = refTerm2 (tLS x0) (tT x1) (tLT x1) a b := by
  rw [val_main_v53_apply, val_main_v52_apply, val_main_v46_apply, v45_at, v44_at, val_main_v51_apply, v50_at, v49_at]
  simp only [Ideal.hostAbsf_def, Ideal.absf_def, Ideal.subf_def]
  rfl

/-- %63: the third loss's entry. -/
theorem v63_at (a b : Fin 4096) : val_main_v63 (F := Ideal) x0 x1 (ix2 a b)
    = refTerm (tS x0) (tLS x0) (tT x1) (tLT x1) (tLS x0) a b := by
  rw [val_main_v63_apply, val_main_v62_apply, v31_at, val_main_v61_apply, v60_at, v59_at]
  simp only [Ideal.hostAbsf_def, Ideal.absf_def, Ideal.subf_def]
  rfl

/-! ## The five results -/

theorem loss0_eq : val_main_v26 (F := Ideal) x0 x1 = fun _ => loss0 (tT x1) (tLS x0) := by
  funext i
  rw [val_main_v26_apply, val_main_v25_apply, val_main_cst_8_apply, val_main_cst_9_apply, sum_idx1]
  simp only [Ideal.hostDivf_def, Ideal.ofBits_def, Ideal.ofBits_zero_f32, zero_add, val_main_v24_apply,
    Ideal.hostNegf_def, Ideal.negf_def, v23_at]
  rfl

theorem loss1_eq : val_main_v41 (F := Ideal) x0 x1
    = fun _ => lossOf (total (refTerm (tS x0) (tLS x0) (tT x1) (tLT x1) (tLT x1))) := by
  funext i
  rw [val_main_v41_apply, val_main_v40_apply, val_main_v39_apply, val_main_cst_10_apply, val_main_cst_11_apply,
    val_main_cst_12_apply, sum_idx2]
  simp only [Ideal.hostDivf_def, Ideal.addf_def, Ideal.ofBits_def, Ideal.ofBits_zero_f32, zero_add, v38_at]
  rfl

theorem loss2_eq : val_main_v56 (F := Ideal) x0 x1
    = fun _ => lossOf (total (refTerm2 (tLS x0) (tT x1) (tLT x1))) := by
  funext i
  rw [val_main_v56_apply, val_main_v55_apply, val_main_v54_apply, val_main_cst_13_apply, val_main_cst_14_apply,
    val_main_cst_15_apply, sum_idx2]
  simp only [Ideal.hostDivf_def, Ideal.addf_def, Ideal.ofBits_def, Ideal.ofBits_zero_f32, zero_add, v53_at]
  rfl

theorem loss3_eq : val_main_v66 (F := Ideal) x0 x1
    = fun _ => lossOf (total (refTerm (tS x0) (tLS x0) (tT x1) (tLT x1) (tLS x0))) := by
  funext i
  rw [val_main_v66_apply, val_main_v65_apply, val_main_v64_apply, val_main_cst_16_apply, val_main_cst_17_apply,
    val_main_cst_18_apply, sum_idx2]
  simp only [Ideal.hostDivf_def, Ideal.addf_def, Ideal.ofBits_def, Ideal.ofBits_zero_f32, zero_add, v63_at]
  rfl

theorem total_eq : val_main_v69 (F := Ideal) x0 x1
    = fun _ => (loss0 (tT x1) (tLS x0) + lossOf (total (refTerm (tS x0) (tLS x0) (tT x1) (tLT x1) (tLT x1))))
        + (lossOf (total (refTerm2 (tLS x0) (tT x1) (tLT x1)))
          + lossOf (total (refTerm (tS x0) (tLS x0) (tT x1) (tLT x1) (tLS x0)))) := by
  funext i
  rw [val_main_v69_apply, val_main_v67_apply, val_main_v68_apply, loss0_eq, loss1_eq, loss2_eq, loss3_eq]
  simp only [Ideal.addf_def]

end SelfKL.Ref

end
-- ==== Proof.Equal.lean ====
/-
  The kernel's arrangement of the three pairwise losses equals the reference's results, for finite logits and labels in range.

  The four tables hold reals (positive softmax entries, their logarithms, a clipped indicator and its logarithm), so the
  kernel's entries are the reference's and the sums over the square agree; and a target row is the row of its label's
  class in the 3 × 3 class table, so the second loss's sum over rows × rows is the kernel's sum over rows × classes
  weighted by the class counts.
-/
import proofs.«176446_j53927609369062_2_alg».proof.Proof.Inputs
import proofs.«176446_j53927609369062_2_alg».proof.Proof.RefLoss
import proofs.«176446_j53927609369062_2_alg».proof.Proof.Bridge

noncomputable section

namespace SelfKL.Equal

open Cert.ReferenceIdeal Cert.ReferenceIdeal.Gen Cert.ReferenceIdeal.Read
open Idealize.ShloMosaic Idealize.ShloMosaic.ValueIdx SelfKL SelfKL.Ref
open SelfKL.Inputs hiding Logits Labels

theorem isReal_S (x0 : Logits) (hx : Finite x0) : IsReal (tS x0) := by
  choose f hf using S_pos x0 hx
  exact ⟨fun a c => f (ix2 a c), fun a c => (hf (ix2 a c)).2⟩
theorem isReal_LS (x0 : Logits) (hx : Finite x0) : IsReal (tLS x0) := by
  choose f hf using LS_real x0 hx
  exact ⟨fun a c => f (ix2 a c), fun a c => hf (ix2 a c)⟩
theorem isReal_T (x1 : Labels) (hl : InRange x1) : IsReal (tT x1) := by
  obtain ⟨ε, _, _, hT⟩ := T_val x1 hl
  exact ⟨fun a c => if (x1 (ix1 a)).toNat = c.val then (1 : ℝ) else ε, fun a c => hT a c⟩
theorem isReal_LT (x1 : Labels) (hl : InRange x1) : IsReal (tLT x1) := by
  choose f hf using LT_real x1 hl
  exact ⟨fun a c => f (ix2 a c), fun a c => hf (ix2 a c)⟩

/-- The first loss. -/
theorem loss1 (x0 : Logits) (x1 : Labels) (hx : Finite x0) (hl : InRange x1) :
    (fun _ => lossOf (total (kerTerm (tS x0) (tLS x0) (tT x1) (tLT x1) (tLT x1)))) = val_main_v41 (F := Ideal) x0 x1 := by
  rw [loss1_eq x0 x1, Bridge.total_kerTerm _ _ _ _ _ (isReal_S x0 hx) (isReal_LS x0 hx) (isReal_T x1 hl)
    (isReal_LT x1 hl) (isReal_LT x1 hl)]

/-- The third loss. -/
theorem loss3 (x0 : Logits) (x1 : Labels) (hx : Finite x0) (hl : InRange x1) :
    (fun _ => lossOf (total (kerTerm (tS x0) (tLS x0) (tT x1) (tLT x1) (tLS x0)))) = val_main_v66 (F := Ideal) x0 x1 := by
  rw [loss3_eq x0 x1, Bridge.total_kerTerm _ _ _ _ _ (isReal_S x0 hx) (isReal_LS x0 hx) (isReal_T x1 hl)
    (isReal_LT x1 hl) (isReal_LS x0 hx)]

/-- A row's class: its label, which lies below 3. -/
def labOf (x1 : Labels) (hl : InRange x1) (j : Fin 4096) : Fin 3 := ⟨(x1 (ix1 j)).toNat, hl (ix1 j)⟩

/-- The second loss, from the class table and the class counts. -/
theorem loss2 (x0 : Logits) (x1 : Labels) (hx : Finite x0) (hl : InRange x1)
    (TT : (⟨2, ![3, 3]⟩ : Shape).Idx → EReal) (cnt : (⟨1, ![3]⟩ : Shape).Idx → EReal)
    (hTT : ∀ k c : Fin 3, TT (ix2 k c) = if k = c then (1 : EReal) else Ideal.ofBits .f32 0x38D1B717#32)
    (hcnt : ∀ k : Fin 3, cnt (ix1 k) = ∑ j : Fin 4096, (if (x1 (ix1 j)).toNat = k.val then (1 : EReal) else 0)) :
    (fun _ => lossOf (kerSum2 (tLS x0) (tLT x1) TT cnt)) = val_main_v56 (F := Ideal) x0 x1 := by
  -- a row's class is its label; "the class is k" and "the label word's value is k" are the same condition
  have hlab : ∀ (j : Fin 4096) (k : Fin 3), labOf x1 hl j = k ↔ (x1 (ix1 j)).toNat = k.val := fun _ _ => Fin.ext_iff
  -- the class table holds reals: 1 on the diagonal, eps off it
  have hTTr : ∀ k c : Fin 3, ∃ r : ℝ, TT (ix2 k c) = (r : EReal) := by
    obtain ⟨ε, _, _, hε⟩ := SoftmaxReal.ofBits_eps
    intro k c
    rw [hTT k c]
    by_cases hkc : k = c
    · exact ⟨1, by rw [if_pos hkc]; exact EReal.coe_one.symm⟩
    · exact ⟨ε, by rw [if_neg hkc]; exact hε⟩
  -- a target row is the row of its class in the class table
  have hTT' : ∀ (b : Fin 4096) (c : Fin 3), tT x1 (ix2 b c) = TT (ix2 (labOf x1 hl b) c) := by
    intro b c
    rw [hTT (labOf x1 hl b) c]
    exact (T_lit x1 b c).trans (if_congr (hlab b c).symm rfl rfl)
  -- the counts count the rows of each class
  have hcnt' : ∀ k : Fin 3, cnt (ix1 k) = ∑ j : Fin 4096, (if labOf x1 hl j = k then (1 : EReal) else 0) := by
    intro k
    rw [hcnt k]
    exact Finset.sum_congr rfl fun j _ => if_congr (hlab j k).symm rfl rfl
  rw [loss2_eq x0 x1, Bridge.kerSum2_eq (tLS x0) (tT x1) (tLT x1) TT cnt (labOf x1 hl) (isReal_LS x0 hx) (isReal_T x1 hl)
    (isReal_LT x1 hl) hTTr hTT' hcnt']

end SelfKL.Equal

end
-- ==== Proof.KernelValue.lean ====
/-
  The kernel program's five results are the reference's stages of the kernel's own inputs.

  The cross-entropy term is the same host computation.  The first and third losses are eps plus the sum of the four row
  sums of a result array over 4096²; the row sums add up to the kernel's entries over the whole square, which on the real
  tables that finite logits and labels in range produce are the reference's entries.  The second loss is the host's
  class-weighted sum, which is the reference's sum over rows × rows.  The total adds them in the same grouping.
-/
import proofs.«176446_j53927609369062_2_alg».proof.Proof.KernelTail
import proofs.«176446_j53927609369062_2_alg».proof.Proof.KernelBlocks
import proofs.«176446_j53927609369062_2_alg».proof.Proof.KernelHost
import proofs.«176446_j53927609369062_2_alg».proof.Proof.Equal

set_option maxRecDepth 16384

noncomputable section

namespace Cert.KernelIdeal.Value

open Cert.KernelIdeal Cert.KernelIdeal.Gen Cert.KernelIdeal.Arr Cert.KernelIdeal.Tail
open Idealize.ShloMosaic Idealize.ShloMosaic.TcCoe Idealize.ShloMosaic.ValueIdx Idealize.SL.Sem
open SelfKL SelfKL.Inputs
open Cert.ReferenceIdeal.Read (val_main_v26 val_main_v41 val_main_v56 val_main_v66 val_main_v69 val_main_v67 val_main_v68
  val_main_v69_apply val_main_v67_apply val_main_v68_apply)

variable (m : (ℓ : Loc nD τ sig) → Buf (Elt Ideal) ℓ) (c : Dev nD)

/-- The kernel's inputs as launched. -/
abbrev x0 : SelfKL.Ref.Logits := SelfKL.KerHost.logits m c
abbrev x1 : SelfKL.Ref.Labels := SelfKL.KerHost.labels m c

/-- The row sums of the first result array, over the reference's tables. -/
theorem rows1 : (∑ i : Fin 4, G4v m c (ix3 i (0 : Fin 1) (0 : Fin 128)))
    = total (kerTerm (Ref.tS (x0 m c)) (Ref.tLS (x0 m c)) (Ref.tT (x1 m c)) (Ref.tLT (x1 m c)) (Ref.tLT (x1 m c))) := by
  have h := Blocks.G4_total m c
  rw [show Blocks.tS m c = _ from KerHost.V_S m c, show Blocks.tLS m c = _ from KerHost.V_LS m c,
    show Blocks.tT m c = _ from KerHost.V_T m c, show Blocks.tLT m c = _ from KerHost.V_LT m c] at h
  exact h

theorem rows3 : (∑ i : Fin 4, G5v m c (ix3 i (0 : Fin 1) (0 : Fin 128)))
    = total (kerTerm (Ref.tS (x0 m c)) (Ref.tLS (x0 m c)) (Ref.tT (x1 m c)) (Ref.tLT (x1 m c)) (Ref.tLS (x0 m c))) := by
  have h := Blocks.G5_total m c
  rw [show Blocks.tS m c = _ from KerHost.V_S m c, show Blocks.tLS m c = _ from KerHost.V_LS m c,
    show Blocks.tT m c = _ from KerHost.V_T m c, show Blocks.tLT m c = _ from KerHost.V_LT m c] at h
  exact h

theorem k_loss0 : (Pipeline.afterTail₀ cfgs (dats m) 0 (V0 m) [hostOps1] c main_v23 : S_.Idx → EReal) = val_main_v26 (F := Ideal) (x0 m c) (x1 m c) := by
  rw [tail_loss0 m c]; exact KerHost.V_loss0 m c

theorem k_loss1 (hx : Finite (x0 m c)) (hl : InRange (x1 m c)) :
    (Pipeline.afterTail₀ cfgs (dats m) 0 (V0 m) [hostOps1] c main_v46 : S_.Idx → EReal) = val_main_v41 (F := Ideal) (x0 m c) (x1 m c) := by
  rw [tail_loss1 m c, rows1 m c]
  exact Equal.loss1 (x0 m c) (x1 m c) hx hl

theorem k_loss3 (hx : Finite (x0 m c)) (hl : InRange (x1 m c)) :
    (Pipeline.afterTail₀ cfgs (dats m) 0 (V0 m) [hostOps1] c main_v51 : S_.Idx → EReal) = val_main_v66 (F := Ideal) (x0 m c) (x1 m c) := by
  rw [tail_loss3 m c, rows3 m c]
  exact Equal.loss3 (x0 m c) (x1 m c) hx hl

/-- The second loss as the region finds it. -/
theorem v_loss2 (hx : Finite (x0 m c)) (hl : InRange (x1 m c)) :
    (V m c main_v40 : S_.Idx → EReal) = val_main_v56 (F := Ideal) (x0 m c) (x1 m c) := by
  rw [KerHost.V_loss2 m c, KerHost.V_LS m c, KerHost.V_LT m c]
  exact Equal.loss2 (x0 m c) (x1 m c) hx hl (V m c main_v28) (V m c main_v30) (KerHost.TT_apply m c) (KerHost.cnt_apply m c)

theorem k_loss2 (hx : Finite (x0 m c)) (hl : InRange (x1 m c)) :
    (Pipeline.afterTail₀ cfgs (dats m) 0 (V0 m) [hostOps1] c main_v40 : S_.Idx → EReal) = val_main_v56 (F := Ideal) (x0 m c) (x1 m c) := by
  rw [tail_loss2 m c]; exact v_loss2 m c hx hl

theorem k_total (hx : Finite (x0 m c)) (hl : InRange (x1 m c)) :
    (Pipeline.afterTail₀ cfgs (dats m) 0 (V0 m) [hostOps1] c main_v54 : S_.Idx → EReal) = val_main_v69 (F := Ideal) (x0 m c) (x1 m c) := by
  rw [tail_total m c, KerHost.V_loss0 m c, v_loss2 m c hx hl, rows1 m c, rows3 m c,
    Equal.loss1 (x0 m c) (x1 m c) hx hl, Equal.loss3 (x0 m c) (x1 m c) hx hl]
  funext j
  rw [val_main_v69_apply, val_main_v67_apply, val_main_v68_apply]
  rfl

end Cert.KernelIdeal.Value

end
-- ==== Proof.lean ====
/-
  The certificate of the SelfKL loss kernel against its jnp reference, over the extended reals.

  The claim: under the precondition (every logit finite, every label in {0, 1, 2}) the three programs run and leave their
  inputs unchanged, the idealized kernel is the kernel's own text read exactly, and the idealized kernel and the idealized
  reference, from the same inputs, end with the same five numbers: the total, the cross-entropy term, and three
  pairwise losses.

  The mathematics.  Both programs form the same four [4096, 3] tables: the row-wise softmax S of the logits, its logarithm,
  the one-hot target clipped into [eps, 1], and its logarithm.  For finite logits and labels in range all four hold real
  numbers.  The first and third losses sum |(S_a·LS_a − S_a·LS_b) − (T_a·LT_a − T_a·X_b)| over all pairs (a, b); the kernel
  subtracts the two row constants first and the two cross terms second, tile by tile over a 4 × 8 grid of 1024 × 512 blocks,
  accumulating each grid row's block sums in a scratch vector that it copies out at the row's last column.  On real numbers
  the two groupings of the differences agree, and sums on the extended reals may be regrouped freely, so the four row sums
  add up to the reference's one sum.  The second loss's entry reduces, on reals, to |(LT_a − LS_a)·T_b|, which depends on b
  only through b's label; the kernel computes it once per class and weights it by the number of rows of that class.  That
  is the reference's sum exactly when every label is one of the three classes, which is why the label range is part of the
  precondition.  The cross-entropy term is the same host computation on both sides.
-/
import proofs.«176446_j53927609369062_2_alg».proof.Defs
import proofs.«176446_j53927609369062_2_alg».proof.Proof.Gen.Kernel
import proofs.«176446_j53927609369062_2_alg».proof.Proof.Gen.Kernel.Skeleton
import proofs.«176446_j53927609369062_2_alg».proof.Proof.Gen.Kernel.Launch
import proofs.«176446_j53927609369062_2_alg».proof.Proof.Gen.Kernel.Points
import proofs.«176446_j53927609369062_2_alg».proof.Proof.Gen.Kernel.Frame
import proofs.«176446_j53927609369062_2_alg».proof.Proof.Gen.KernelIdeal
import proofs.«176446_j53927609369062_2_alg».proof.Proof.Gen.KernelIdeal.Skeleton
import proofs.«176446_j53927609369062_2_alg».proof.Proof.Gen.KernelIdeal.Launch
import proofs.«176446_j53927609369062_2_alg».proof.Proof.Gen.KernelIdeal.Points
import proofs.«176446_j53927609369062_2_alg».proof.Proof.Gen.KernelIdeal.Frame
import proofs.«176446_j53927609369062_2_alg».proof.Proof.Gen.ReferenceIdeal
import proofs.«176446_j53927609369062_2_alg».proof.Proof.Gen.Pre_finite_inputs
import proofs.«176446_j53927609369062_2_alg».proof.Proof.Gen.ReferenceIdeal.Read
import proofs.«176446_j53927609369062_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its inputs unchanged. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- The reference runs and leaves its inputs unchanged: its run with the five results dropped. -/
theorem frame_ri : Cert.frame_ReferenceIdeal := fun m ρ _ =>
  (θ_run Cert.ReferenceIdeal.defs _ _).mono (fun _ h c => ⟨(h c).2.2.2.2.2.1, (h c).2.2.2.2.2.2⟩)
    (Cert.ReferenceIdeal.Value.run (F := Ideal) m ρ)

/-- The ideal pass rewrote nothing. -/
theorem preserves : Cert.preserves_Kernel_KernelIdeal := trivial

/-- The five results agree: each of the kernel's is the reference's stage of the kernel's own inputs, and the reference,
    run from memories agreeing on the inputs, ends at the same stages. -/
theorem algebraic : Cert.algebraic_KernelIdeal_ReferenceIdeal := by
  intro m ρ m' ρ' hpre hagree
  refine ⟨fun c => Cert.ReferenceIdeal.Read.val_main_v69 (F := Ideal) (Cert.KernelIdeal.Value.x0 m c) (Cert.KernelIdeal.Value.x1 m c),
    fun c => Cert.ReferenceIdeal.Read.val_main_v26 (F := Ideal) (Cert.KernelIdeal.Value.x0 m c) (Cert.KernelIdeal.Value.x1 m c),
    fun c => Cert.ReferenceIdeal.Read.val_main_v41 (F := Ideal) (Cert.KernelIdeal.Value.x0 m c) (Cert.KernelIdeal.Value.x1 m c),
    fun c => Cert.ReferenceIdeal.Read.val_main_v56 (F := Ideal) (Cert.KernelIdeal.Value.x0 m c) (Cert.KernelIdeal.Value.x1 m c),
    fun c => Cert.ReferenceIdeal.Read.val_main_v66 (F := Ideal) (Cert.KernelIdeal.Value.x0 m c) (Cert.KernelIdeal.Value.x1 m c), ?_, ?_⟩
  · refine (θ_run Cert.KernelIdeal.defs _ _).mono (fun r h c => ?_) (Cert.KernelIdeal.Gen.run_main m ρ)
    obtain ⟨hx, hl⟩ := SelfKL.Inputs.of_pre (Cert.KernelIdeal.Value.x0 m c) (Cert.KernelIdeal.Value.x1 m c) (hpre c)
    exact ⟨((h c).2 Cert.KernelIdeal.main_v54 (Pipeline.mem_restRefs_of Cert.KernelIdeal.main_v54 (by decide) (by decide))).trans
        (Cert.KernelIdeal.Value.k_total m c hx hl),
      ((h c).2 Cert.KernelIdeal.main_v23 (Pipeline.mem_restRefs_of Cert.KernelIdeal.main_v23 (by decide) (by decide))).trans
        (Cert.KernelIdeal.Value.k_loss0 m c),
      ((h c).2 Cert.KernelIdeal.main_v46 (Pipeline.mem_restRefs_of Cert.KernelIdeal.main_v46 (by decide) (by decide))).trans
        (Cert.KernelIdeal.Value.k_loss1 m c hx hl),
      ((h c).2 Cert.KernelIdeal.main_v40 (Pipeline.mem_restRefs_of Cert.KernelIdeal.main_v40 (by decide) (by decide))).trans
        (Cert.KernelIdeal.Value.k_loss2 m c hx hl),
      ((h c).2 Cert.KernelIdeal.main_v51 (Pipeline.mem_restRefs_of Cert.KernelIdeal.main_v51 (by decide) (by decide))).trans
        (Cert.KernelIdeal.Value.k_loss3 m c hx hl),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩
  · refine (θ_run Cert.ReferenceIdeal.defs _ _).mono (fun r h c => ?_) (Cert.ReferenceIdeal.Value.run (F := Ideal) m' ρ')
    have e0 := (hagree c).1
    have e1 := (hagree c).2
    refine ⟨(h c).1.trans ?_, (h c).2.1.trans ?_, (h c).2.2.1.trans ?_, (h c).2.2.2.1.trans ?_, (h c).2.2.2.2.1.trans ?_,
      (h c).2.2.2.2.2.1, (h c).2.2.2.2.2.2⟩
    · rw [Cert.ReferenceIdeal.Read.val_main_v69_eq, e0, e1]
    · rw [Cert.ReferenceIdeal.Read.val_main_v26_eq, e0, e1]
    · rw [Cert.ReferenceIdeal.Read.val_main_v41_eq, e0, e1]
    · rw [Cert.ReferenceIdeal.Read.val_main_v56_eq, e0, e1]
    · rw [Cert.ReferenceIdeal.Read.val_main_v66_eq, e0, e1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
